-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x512 : Shape := ⟨3, ![8, 2048, 512]⟩
abbrev S8x2048x2048 : Shape := ⟨3, ![8, 2048, 2048]⟩
abbrev S512x512 : Shape := ⟨2, ![512, 512]⟩
abbrev S512 : Shape := ⟨1, ![512]⟩
abbrev S_ : Shape := ⟨0, ![]⟩

class Facts : Prop where
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel
  bcast_S_S8x2048x2048 : S_.BroadcastsInDim S8x2048x2048 (![] : Fin 0 → Fin S8x2048x2048.rank)
  reducesTo_S8x2048x2048_S_d0_1_2 : S8x2048x2048.ReducesTo [0, 1, 2] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : FVec F S8x2048x512 .f32) (main_arg1 : FVec F S8x2048x2048 .f32) (main_arg2 : FVec F S512x512 .f32) (main_arg3 : FVec F S512 .f32) : IVec S_ 1 :=
  let main_v0 : FVec F S8x2048x512 .f32 := Host.absf main_arg0
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  let main_c : IVec S_ 1 := constantI S_ 1 1#1
  let main_v3 : IVec S_ 1 := (fun x v => Host.reduce IntOp.andi x v reducesTo_S8x2048x512_S_d0_1_2 h_S_) main_v2 main_c
  let main_v4 : FVec F S8x2048x2048 .f32 := Host.absf main_arg1
  let main_cst_0 : FVec F S_ .f32 := constant S_ .f32 0x7F800000#32
  let main_v5 : FVec F S8x2048x2048 .f32 := broadcastInDim S8x2048x2048 ![] bcast_S_S8x2048x2048 main_cst_0
  let main_v6 : IVec S8x2048x2048 1 := cmpf .olt main_v4 main_v5
  let main_c_1 : IVec S_ 1 := constantI S_ 1 1#1
  let main_v7 : IVec S_ 1 := (fun x v => Host.reduce IntOp.andi x v reducesTo_S8x2048x2048_S_d0_1_2 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S8x2048x512 : Shape := ⟨3, ![8, 2048, 512]⟩
abbrev S8x2048x2048 : Shape := ⟨3, ![8, 2048, 2048]⟩
abbrev S512x512 : Shape := ⟨2, ![512, 512]⟩
abbrev S512 : Shape := ⟨1, ![512]⟩
abbrev S8x2048x1 : Shape := ⟨3, ![8, 2048, 1]⟩
abbrev S1x512x2048 : Shape := ⟨3, ![1, 512, 2048]⟩
abbrev S1x512x1 : Shape := ⟨3, ![1, 512, 1]⟩
abbrev S512x2048 : Shape := ⟨2, ![512, 2048]⟩
abbrev S512x1 : Shape := ⟨2, ![512, 1]⟩
abbrev S_ : Shape := ⟨0, ![]⟩
abbrev S16384x512 : Shape := ⟨2, ![16384, 512]⟩
abbrev S1024x512 : Shape := ⟨2, ![1024, 512]⟩
abbrev S1x2048x512 : Shape := ⟨3, ![1, 2048, 512]⟩
abbrev S1x2048x1 : Shape := ⟨3, ![1, 2048, 1]⟩
abbrev S1x512x512 : Shape := ⟨3, ![1, 512, 512]⟩
abbrev S2048x1 : Shape := ⟨2, ![2048, 1]⟩
abbrev S2048x512 : Shape := ⟨2, ![2048, 512]⟩
abbrev S1x512 : Shape := ⟨2, ![1, 512]⟩

abbrev nBuf : Space → Nat
  | .hbm => 17
  | .vmem => 20
  | .smem => 0
  | _ => 0

abbrev bufTy : (tb : Table) → Fin (tcTables nBuf tb) → BufTy
  | .hbm, ⟨0, _⟩ => ⟨S8x2048x512, .f32⟩
  | .hbm, ⟨1, _⟩ => ⟨S8x2048x2048, .f32⟩
  | .hbm, ⟨2, _⟩ => ⟨S512x512, .f32⟩
  | .hbm, ⟨3, _⟩ => ⟨S512, .f32⟩
  | .hbm, ⟨4, _⟩ => ⟨S8x2048x1, .f32⟩
  | .hbm, ⟨5, _⟩ => ⟨S_, .f32⟩
  | .hbm, ⟨6, _⟩ => ⟨S8x2048x1, .f32⟩
  | .hbm, ⟨7, _⟩ => ⟨S8x2048x1, .i1⟩
  | .hbm, ⟨8, _⟩ => ⟨S8x2048x1, .f32⟩
  | .hbm, ⟨9, _⟩ => ⟨S_, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S16384x512, .f32⟩
  | .hbm, ⟨14, _⟩ => ⟨S16384x512, .f32⟩
  | .hbm, ⟨15, _⟩ => ⟨S8x2048x512, .f32⟩
  | .hbm, ⟨16, _⟩ => ⟨S8x2048x512, .f32⟩
  | .local _ .vmem, ⟨0, _⟩ => ⟨S1x512x2048, .f32⟩
  | .local _ .vmem, ⟨1, _⟩ => ⟨S1x512x2048, .f32⟩
  | .local _ .vmem, ⟨2, _⟩ => ⟨S1x512x1, .f32⟩
  | .local _ .vmem, ⟨3, _⟩ => ⟨S1x512x1, .f32⟩
  | .local _ .vmem, ⟨4, _⟩ => ⟨S1024x512, .f32⟩
  | .local _ .vmem, ⟨5, _⟩ => ⟨S1024x512, .f32⟩
  | .local _ .vmem, ⟨6, _⟩ => ⟨S512x512, .f32⟩
  | .local _ .vmem, ⟨7, _⟩ => ⟨S1024x512, .f32⟩
  | .local _ .vmem, ⟨8, _⟩ => ⟨S1024x512, .f32⟩
  | .local _ .vmem, ⟨9, _⟩ => ⟨S1x512x2048, .f32⟩
  | .local _ .vmem, ⟨10, _⟩ => ⟨S1x512x2048, .f32⟩
  | .local _ .vmem, ⟨11, _⟩ => ⟨S1x2048x512, .f32⟩
  | .local _ .vmem, ⟨12, _⟩ => ⟨S1x2048x512, .f32⟩
  | .local _ .vmem, ⟨13, _⟩ => ⟨S1x512x1, .f32⟩
  | .local _ .vmem, ⟨14, _⟩ => ⟨S1x512x1, .f32⟩
  | .local _ .vmem, ⟨15, _⟩ => ⟨S1x2048x1, .f32⟩
  | .local _ .vmem, ⟨16, _⟩ => ⟨S1x2048x1, .f32⟩
  | .local _ .vmem, ⟨17, _⟩ => ⟨S512, .f32⟩
  | .local _ .vmem, ⟨18, _⟩ => ⟨S1x512x512, .f32⟩
  | .local _ .vmem, ⟨19, _⟩ => ⟨S1x512x512, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg2_1 : Ref sig .tc := ⟨.vmem, 14, rfl⟩
abbrev cc2_stg3_0 : Ref sig .tc := ⟨.vmem, 15, rfl⟩
abbrev cc2_stg3_1 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev cc2_sem0_0 : DmaSem sig := 9
abbrev cc2_sem0_1 : DmaSem sig := 10
abbrev cc2_sem1_0 : DmaSem sig := 11
abbrev cc2_sem1_1 : DmaSem sig := 12
abbrev cc2_sem2_0 : DmaSem sig := 13
abbrev cc2_sem2_1 : DmaSem sig := 14
abbrev cc2_sem3_0 : DmaSem sig := 15
abbrev cc2_sem3_1 : DmaSem sig := 16
abbrev cc2_sem4_0 : DmaSem sig := 17
abbrev cc2_sem5_0 : DmaSem sig := 18
abbrev cc2_sem5_1 : DmaSem sig := 19

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![8, 4], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x512x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x2048x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x512x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x2048x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 1 → Memref sig .tc .vmem S512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S1x512x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

class Facts₀ : Prop where
  iota_S512x2048_d0_w32 : S512x2048.Iotas .tc 32 [0]
  iota_S512x2048_d1_w32 : S512x2048.Iotas .tc 32 [1]
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  natLt_1_32 : 1 < 32
  reduces_S512x2048_S512 : S512x2048.Reduces [1] S512
  shapeCasts_S512_S512x1 : S512.ShapeCasts S512x1
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  shapeCasts_S512x1_S1x512x1 : S512x1.ShapeCasts S1x512x1
  bcast_S_S8x2048x1 : S_.BroadcastsInDim S8x2048x1 (![] : Fin 0 → Fin S8x2048x1.rank)
  shapeCasts_S8x2048x512_S16384x512 : S8x2048x512.ShapeCasts S16384x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S16384x512_S8x2048x512 : S16384x512.ShapeCasts S8x2048x512
  inb_S1x2048x1_S1x2048x1_0_0_0 : ∀ a, (![0, 0, 0] : Fin 3 → Nat) a + S1x2048x1.size a ≤ S1x2048x1.size a
  h_S1x2048x1 : 0 < S1x2048x1.numel
  shapeCasts_S1x2048x1_S2048x1 : S1x2048x1.ShapeCasts S2048x1
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  broadcasts_S2048x1_S2048x512 : S2048x1.Broadcasts S2048x512
  broadcasts_S512x1_S512x512 : S512x1.Broadcasts S512x512
  inb_S512_S512_0 : ∀ a, (![0] : Fin 1 → Nat) a + S512.size a ≤ S512.size a
  h_S512 : 0 < S512.numel
  shapeCasts_S512_S1x512 : S512.ShapeCasts S1x512
  broadcasts_S1x512_S512x512 : S1x512.Broadcasts S512x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x512_S1x512x512 : S512x512.ShapeCasts S1x512x512
  dot_S1024x512_S512x512_S1024x512_1_0_0_1_n_n_wf : DotDims.WF S1024x512 S512x512 S1024x512 [1] [0] [0] [1] [] []
  dot_S512x2048_S2048x512_S512x512_1_0_0_1_n_n_wf : DotDims.WF S512x2048 S2048x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S8x2048x2048.size a
  hwx0_0 : ∀ i : grid0.Coords, EltTy.bits .f32 = 32 ∨ (Rect.block (s := S8x2048x2048) S1x512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1.size a ≤ S8x2048x1.size a
  hwx0_1 : ∀ i : grid0.Coords, EltTy.bits .f32 = 32 ∨ (Rect.block (s := S8x2048x1) S1x512x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S16384x512.size a
  hwx1_0 : ∀ i : grid1.Coords, EltTy.bits .f32 = 32 ∨ (Rect.block (s := S16384x512) S1024x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .f32 = 32 ∨ (Rect.block (s := S512x512) S512x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x512.size a ≤ S16384x512.size a
  hwx1_2 : ∀ i : grid1.Coords, EltTy.bits .f32 = 32 ∨ (Rect.block (s := S16384x512) S1024x512.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x512x2048.size a ≤ S8x2048x2048.size a
  hwx2_0 : ∀ i : grid2.Coords, EltTy.bits .f32 = 32 ∨ (Rect.block (s := S8x2048x2048) S1x512x2048.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x2048x512.size a ≤ S8x2048x512.size a
  hwx2_1 : ∀ i : grid2.Coords, EltTy.bits .f32 = 32 ∨ (Rect.block (s := S8x2048x512) S1x2048x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x512x1.size a ≤ S8x2048x1.size a
  hwx2_2 : ∀ i : grid2.Coords, EltTy.bits .f32 = 32 ∨ (Rect.block (s := S8x2048x1) S1x512x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x2048x1.size a ≤ S8x2048x1.size a
  hwx2_3 : ∀ i : grid2.Coords, EltTy.bits .f32 = 32 ∨ (Rect.block (s := S8x2048x1) S1x2048x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S512.size a ≤ S512.size a
  hwx2_4 : ∀ i : grid2.Coords, EltTy.bits .f32 = 32 ∨ (Rect.block (s := S512) S512.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x512x512.size a ≤ S8x2048x512.size a
  hwx2_5 : ∀ i : grid2.Coords, EltTy.bits .f32 = 32 ∨ (Rect.block (s := S8x2048x512) S1x512x512.size (cc2_transform_5 i) (hinb2_5 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf

abbrev win0_0 : Pipeline.Window sig grid0 :=
  Pipeline.Window.ofSpec (Memref.whole main_arg1) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x512x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v5) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1024x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg1) S1x512x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S1x2048x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1x512x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v4) S1x2048x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg3) S512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v8) S1x512x512.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S8x2048x512 : Shape := ⟨3, ![8, 2048, 512]⟩
abbrev S8x2048x2048 : Shape := ⟨3, ![8, 2048, 2048]⟩
abbrev S512x512 : Shape := ⟨2, ![512, 512]⟩
abbrev S512 : Shape := ⟨1, ![512]⟩
abbrev S_ : Shape := ⟨0, ![]⟩
abbrev S2048x2048 : Shape := ⟨2, ![2048, 2048]⟩
abbrev S1x2048x2048 : Shape := ⟨3, ![1, 2048, 2048]⟩
abbrev S8x2048 : Shape := ⟨2, ![8, 2048]⟩
abbrev S8x2048x1 : Shape := ⟨3, ![8, 2048, 1]⟩
abbrev S8x1x2048 : Shape := ⟨3, ![8, 1, 2048]⟩
abbrev S1x1x512 : Shape := ⟨3, ![1, 1, 512]⟩

abbrev nBuf : Space → Nat
  | .hbm => 40
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S8x2048x2048, .f32⟩
  | .hbm, ⟨2, _⟩ => ⟨S512x512, .f32⟩
  | .hbm, ⟨3, _⟩ => ⟨S512, .f32⟩
  | .hbm, ⟨4, _⟩ => ⟨S_, .f32⟩
  | .hbm, ⟨5, _⟩ => ⟨S8x2048x2048, .f32⟩
  | .hbm, ⟨6, _⟩ => ⟨S8x2048x2048, .i1⟩
  | .hbm, ⟨7, _⟩ => ⟨S8x2048x2048, .f32⟩
  | .hbm, ⟨8, _⟩ => ⟨S2048x2048, .i32⟩
  | .hbm, ⟨9, _⟩ => ⟨S2048x2048, .i32⟩
  | .hbm, ⟨10, _⟩ => ⟨S_, .i32⟩
  | .hbm, ⟨11, _⟩ => ⟨S2048x2048, .i32⟩
  | .hbm, ⟨12, _⟩ => ⟨S2048x2048, .i32⟩
  | .hbm, ⟨13, _⟩ => ⟨S2048x2048, .i1⟩
  | .hbm, ⟨14, _⟩ => ⟨S2048x2048, .f32⟩
  | .hbm, ⟨15, _⟩ => ⟨S1x2048x2048, .f32⟩
  | .hbm, ⟨16, _⟩ => ⟨S8x2048x2048, .f32⟩
  | .hbm, ⟨17, _⟩ => ⟨S8x2048x2048, .f32⟩
  | .hbm, ⟨18, _⟩ => ⟨S_, .f32⟩
  | .hbm, ⟨19, _⟩ => ⟨S8x2048, .f32⟩
  | .hbm, ⟨20, _⟩ => ⟨S_, .f32⟩
  | .hbm, ⟨21, _⟩ => ⟨S8x2048, .f32⟩
  | .hbm, ⟨22, _⟩ => ⟨S8x2048, .i1⟩
  | .hbm, ⟨23, _⟩ => ⟨S8x2048, .f32⟩
  | .hbm, ⟨24, _⟩ => ⟨S_, .f32⟩
  | .hbm, ⟨25, _⟩ => ⟨S_, .f32⟩
  | .hbm, ⟨26, _⟩ => ⟨S8x2048, .f32⟩
  | .hbm, ⟨27, _⟩ => ⟨S8x2048, .f32⟩
  | .hbm, ⟨28, _⟩ => ⟨S8x2048x1, .f32⟩
  | .hbm, ⟨29, _⟩ => ⟨S8x2048x2048, .f32⟩
  | .hbm, ⟨30, _⟩ => ⟨S8x2048x2048, .f32⟩
  | .hbm, ⟨31, _⟩ => ⟨S8x1x2048, .f32⟩
  | .hbm, ⟨32, _⟩ => ⟨S8x2048x2048, .f32⟩
  | .hbm, ⟨33, _⟩ => ⟨S8x2048x2048, .f32⟩
  | .hbm, ⟨34, _⟩ => ⟨S8x2048x512, .f32⟩
  | .hbm, ⟨35, _⟩ => ⟨S8x2048x512, .f32⟩
  | .hbm, ⟨36, _⟩ => ⟨S1x1x512, .f32⟩
  | .hbm, ⟨37, _⟩ => ⟨S8x2048x512, .f32⟩
  | .hbm, ⟨38, _⟩ => ⟨S8x2048x512, .f32⟩
  | .hbm, ⟨39, _⟩ => ⟨S8x2048x512, .f32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)
  bcast_S_S2048x2048 : S_.BroadcastsInDim S2048x2048 (![] : Fin 0 → Fin S2048x2048.rank)
  bcast_S2048x2048_S1x2048x2048_1_2 : S2048x2048.BroadcastsInDim S1x2048x2048 (![1, 2] : Fin 2 → Fin S1x2048x2048.rank)
  bcast_S1x2048x2048_S8x2048x2048_0_1_2 : S1x2048x2048.BroadcastsInDim S8x2048x2048 (![0, 1, 2] : Fin 3 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  bcast_S8x2048_S8x1x2048_0_2 : S8x2048.BroadcastsInDim S8x1x2048 (![0, 2] : Fin 2 → Fin S8x1x2048.rank)
  bcast_S8x1x2048_S8x2048x2048_0_1_2 : S8x1x2048.BroadcastsInDim S8x2048x2048 (![0, 1, 2] : Fin 3 → Fin S8x2048x2048.rank)
  bcast_S512_S1x1x512_2 : S512.BroadcastsInDim S1x1x512 (![2] : Fin 1 → Fin S1x1x512.rank)
  bcast_S1x1x512_S8x2048x512_0_1_2 : S1x1x512.BroadcastsInDim S8x2048x512 (![0, 1, 2] : Fin 3 → Fin S8x2048x512.rank)
  dot_S8x2048x512_S512x512_S8x2048x512_2_0_01_1_n_n_wf : DotDims.WF S8x2048x512 S512x512 S8x2048x512 [2] [0] [0, 1] [1] [] []
  dot_S8x2048x2048_S8x2048x512_S8x2048x512_2_1_1_2_0_0_wf : DotDims.WF S8x2048x2048 S8x2048x512 S8x2048x512 [2] [1] [1] [2] [0] [0]

variable [Facts₀]

def dot_S8x2048x512_S512x512_S8x2048x512_2_0_01_1_n_n : DotDims S8x2048x512 S512x512 S8x2048x512 where
  lhsContracting := [2]
  rhsContracting := [0]
  lhsNonContracting := [0, 1]
  rhsNonContracting := [1]
  lhsBatch := []
  rhsBatch := []
  wf := dot_S8x2048x512_S512x512_S8x2048x512_2_0_01_1_n_n_wf
def dot_S8x2048x2048_S8x2048x512_S8x2048x512_2_1_1_2_0_0 : DotDims S8x2048x2048 S8x2048x512 S8x2048x512 where
  lhsContracting := [2]
  rhsContracting := [1]
  lhsNonContracting := [1]
  rhsNonContracting := [2]
  lhsBatch := [0]
  rhsBatch := [0]
  wf := dot_S8x2048x2048_S8x2048x512_S8x2048x512_2_1_1_2_0_0_wf

class Facts : Prop extends Facts₀ where

variable [Facts]
-- ==== Proof.FrameB.Region0.lean ====
/-
  The first kernel region (the node degrees): what its body leaves in its output block at a grid point — the row sums of
  the edge indicator of a tile of 512 rows —, the body's triple, the region's proof data and the body obligation, at any
  float instance and at any contents `V` of the core's buffers when the region is entered.
-/
import proofs.«146164_j70952859730403_2_alg».proof.Proof.Gen.Kernel.Launch
import proofs.«146164_j70952859730403_2_alg».proof.Proof.Gen.Kernel.Skeleton
import proofs.«146164_j70952859730403_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each window's whole block -/
abbrev r0_0 : Rect S1x512x2048 := Rect.unit (s := S1x512x2048) ![0, 0, 0] S1x512x2048.size inb_S1x512x2048_S1x512x2048_0_0_0
abbrev r0_1 : Rect S1x512x1 := Rect.unit (s := S1x512x1) ![0, 0, 0] S1x512x1.size inb_S1x512x1_S1x512x1_0_0_0

/-! ## What the body leaves in the output window's buffer -/

/-- The output block after the body at grid coordinates `i`, from the input blocks: one store of the whole block. -/
def out0_1 (i : grid0.Coords) (x0 : Vec F S1x512x2048 .f32) : Vec F S1x512x1 .f32 :=
  View.canon [⟨r0_1, k0_pay1 i (View.ld x0 r0_0)⟩]

/-- The one store covers the block. -/
theorem cover0_1 (p0 : Vec F S1x512x1 .f32) (y : S1x512x1.Idx) :
    ∃ pc ∈ ([⟨r0_1, p0⟩] : List (View.Piece (Elt F) S1x512x1 .f32)), y ∈ pc.1.set :=
  View.cover_of_tiled [⟨r0_1, p0⟩] S1x512x1.size (by rfl) y

/-! ## The body's triple -/

set_option maxHeartbeats 1000000 in
/-- The body on whole staging memrefs, the inputs' at read contents and the output's at anything, runs to the continuation
    holding the inputs' as they were and the output's at `out0_1` of the inputs'. -/
theorem sound_kernel0 (c : Dev nD) (E : Set ℕ) (i : grid0.Coords) (arg2 : Memref sig .tc .vmem S1x512x2048 .f32) (harg2 : arg2.IsWhole) (arg3 : Memref sig .tc .vmem S1x512x1 .f32) (harg3 : arg3.IsWhole)
    (x0 : Vec F S1x512x2048 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out0_1 i x0)) -∗ K ⟨⟩))
      ⊢ wp frame (wpE (defs₀ (F := F)) Variants.none c none) E (cc0__degree_kernel i arg2 harg2 arg3 harg3) K := by
  simp only [cc0__degree_kernel_eq_skeleton]; unfold cc0__degree_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The region's proof data -/

/-- The proof data of the region on core `c`: the arrays as the region finds them; after the body at point `t` each
    input's buffer at its block and the output's at `out0_1` of the input blocks; the invariant is the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (grid0.coords t) (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t
    = out0_1 (grid0.coords t) (iblk0 V c 0 t) := by dsimp only [dat0]
theorem before0_0 (c : Dev nD) (t : Fin cfg0.N) (d) : (dat0 V c).before 0 t d = iblk0 V c 0 t :=
  before0_0_of V (dat0 V c) (A_eq0 V c 0) (after0_0 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ (grid0.coords t) _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.FrameB.Region1.lean ====
/-
  The second kernel region (the linear layer): what its body leaves in its output block at a grid point — a tile of 1024
  rows of the features times the weight matrix —, the body's triple, the region's proof data and the body obligation, at
  any float instance and at any contents `V` of the core's buffers when the region is entered.
-/
import proofs.«146164_j70952859730403_2_alg».proof.Proof.Gen.Kernel.Launch
import proofs.«146164_j70952859730403_2_alg».proof.Proof.Gen.Kernel.Skeleton
import proofs.«146164_j70952859730403_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each window's whole block -/
abbrev r1_0 : Rect S1024x512 := Rect.unit (s := S1024x512) ![0, 0] S1024x512.size inb_S1024x512_S1024x512_0_0
abbrev r1_1 : Rect S512x512 := Rect.unit (s := S512x512) ![0, 0] S512x512.size inb_S512x512_S512x512_0_0
abbrev r1_2 : Rect S1024x512 := Rect.unit (s := S1024x512) ![0, 0] S1024x512.size inb_S1024x512_S1024x512_0_0

/-! ## What the body leaves in the output window's buffer -/

/-- The output block after the body at grid coordinates `i`, from the input blocks: one store of the whole block. -/
def out1_2 (i : grid1.Coords) (x0 : Vec F S1024x512 .f32) (x1 : Vec F S512x512 .f32) : Vec F S1024x512 .f32 :=
  View.canon [⟨r1_2, k1_pay1 (View.ld x0 r1_0) (View.ld x1 r1_1)⟩]

/-- The one store covers the block. -/
theorem cover1_2 (p0 : Vec F S1024x512 .f32) (y : S1024x512.Idx) :
    ∃ pc ∈ ([⟨r1_2, p0⟩] : List (View.Piece (Elt F) S1024x512 .f32)), y ∈ pc.1.set :=
  View.cover_of_tiled [⟨r1_2, p0⟩] S1024x512.size (by rfl) y

/-! ## The body's triple -/

set_option maxHeartbeats 1000000 in
/-- The body on whole staging memrefs, the inputs' at read contents and the output's at anything, runs to the continuation
    holding the inputs' as they were and the output's at `out1_2` of the inputs'. -/
theorem sound_kernel1 (c : Dev nD) (E : Set ℕ) (i : grid1.Coords) (arg1 : Memref sig .tc .vmem S1024x512 .f32) (harg1 : arg1.IsWhole) (arg2 : Memref sig .tc .vmem S512x512 .f32) (harg2 : arg2.IsWhole) (arg3 : Memref sig .tc .vmem S1024x512 .f32) (harg3 : arg3.IsWhole)
    (x0 : Vec F S1024x512 .f32) (x1 : Vec F S512x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 i x0 x1)) -∗ K ⟨⟩))
      ⊢ wp frame (wpE (defs₀ (F := F)) Variants.none c none) E (cc1__linear_kernel i arg1 harg1 arg2 harg2 arg3 harg3) K := by
  simp only [cc1__linear_kernel_eq_skeleton]; unfold cc1__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The region's proof data -/

/-- The proof data of the region on core `c`: the arrays as the region finds them; after the body at point `t` each
    input's buffer at its block and the output's at `out1_2` of the input blocks; the invariant is the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (grid1.coords t) (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t
    = out1_2 (grid1.coords t) (iblk1 V c 0 t) (iblk1 V c 1 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.FrameB.Region2.lean ====
/-
  The third kernel region (the aggregation): what its body leaves in its output block at a grid point, the body's
  triple, the region's proof data and the body obligation, at any float instance and at any contents `V` of the
  core's buffers when the region is entered.  The region has six windows: the adjacency row tile, the features of all
  nodes, the row tile's degree scalings, the degree scalings of all nodes, the bias, and the output tile.  The third
  and the fourth window read ONE array (the degree scalings), so that array is held at the two halves of the full
  share, one per window; every other input array at the full share.
-/
import proofs.«146164_j70952859730403_2_alg».proof.Proof.Gen.Kernel.Launch
import proofs.«146164_j70952859730403_2_alg».proof.Proof.Gen.Kernel.Skeleton
import proofs.«146164_j70952859730403_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each window's whole block -/
abbrev r2_0 : Rect S1x512x2048 := Rect.unit (s := S1x512x2048) ![0, 0, 0] S1x512x2048.size inb_S1x512x2048_S1x512x2048_0_0_0
abbrev r2_1 : Rect S1x2048x512 := Rect.unit (s := S1x2048x512) ![0, 0, 0] S1x2048x512.size inb_S1x2048x512_S1x2048x512_0_0_0
abbrev r2_2 : Rect S1x512x1 := Rect.unit (s := S1x512x1) ![0, 0, 0] S1x512x1.size inb_S1x512x1_S1x512x1_0_0_0
abbrev r2_3 : Rect S1x2048x1 := Rect.unit (s := S1x2048x1) ![0, 0, 0] S1x2048x1.size inb_S1x2048x1_S1x2048x1_0_0_0
abbrev r2_4 : Rect S512 := Rect.unit (s := S512) ![0] S512.size inb_S512_S512_0
abbrev r2_5 : Rect S1x512x512 := Rect.unit (s := S1x512x512) ![0, 0, 0] S1x512x512.size inb_S1x512x512_S1x512x512_0_0_0

/-! ## What the body leaves in the output window's buffer -/

/-- The output tile after the body at grid coordinates `i`, from the five input blocks: one store of the whole tile. -/
def out2_5 (i : grid2.Coords) (x0 : Vec F S1x512x2048 .f32) (x1 : Vec F S1x2048x512 .f32) (x2 : Vec F S1x512x1 .f32) (x3 : Vec F S1x2048x1 .f32) (x4 : Vec F S512 .f32) : Vec F S1x512x512 .f32 :=
  View.canon [⟨r2_5, k2_pay1 i (View.ld x0 r2_0) (View.ld x3 r2_3) (View.ld x1 r2_1) (View.ld x2 r2_2) (View.ld x4 r2_4)⟩]

/-- The one store covers the tile. -/
theorem cover2_5 (p0 : Vec F S1x512x512 .f32) (y : S1x512x512.Idx) :
    ∃ pc ∈ ([⟨r2_5, p0⟩] : List (View.Piece (Elt F) S1x512x512 .f32)), y ∈ pc.1.set :=
  View.cover_of_tiled [⟨r2_5, p0⟩] S1x512x512.size (by rfl) y

/-! ## The body's triple -/

set_option maxHeartbeats 1000000 in
/-- The body on whole staging memrefs, the inputs' at read contents and the output's at anything, runs to the continuation
    holding the inputs' as they were and the output's at `out2_5` of the inputs'. -/
theorem sound_kernel2 (c : Dev nD) (E : Set ℕ) (i : grid2.Coords)
    (arg2 : Memref sig .tc .vmem S1x512x2048 .f32) (harg2 : arg2.IsWhole) (arg3 : Memref sig .tc .vmem S1x2048x512 .f32) (harg3 : arg3.IsWhole)
    (arg4 : Memref sig .tc .vmem S1x512x1 .f32) (harg4 : arg4.IsWhole) (arg5 : Memref sig .tc .vmem S1x2048x1 .f32) (harg5 : arg5.IsWhole)
    (arg6 : Memref sig .tc .vmem S512 .f32) (harg6 : arg6.IsWhole) (arg7 : Memref sig .tc .vmem S1x512x512 .f32) (harg7 : arg7.IsWhole)
    (x0 : Vec F S1x512x2048 .f32) (x1 : Vec F S1x2048x512 .f32) (x2 : Vec F S1x512x1 .f32) (x3 : Vec F S1x2048x1 .f32) (x4 : Vec F S512 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out2_5 i x0 x1 x2 x3 x4)) -∗ K ⟨⟩))
      ⊢ wp frame (wpE (defs₀ (F := F)) Variants.none c none) E (cc2__agg_kernel i arg2 harg2 arg3 harg3 arg4 harg4 arg5 harg5 arg6 harg6 arg7 harg7) K := by
  simp only [cc2__agg_kernel_eq_skeleton]; unfold cc2__agg_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The region's proof data -/

/-- The proof data of the region on core `c`: the arrays as the region finds them; after the body at point `t` each
    input's buffer at its block and the output's at `out2_5` of the input blocks; the invariant is the scoped rest and the
    generator register, untouched; nothing owed; the array the third and fourth windows share at the two halves of the
    full share, every other input at the full share. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (grid2.coords t) (iblk2 V c 0 t) (iblk2 V c 1 t) (iblk2 V c 2 t) (iblk2 V c 3 t) (iblk2 V c 4 t)
  Φ _ := Pipeline.ΦA spec2 c
  q w := match w with
    | ⟨2, _⟩ => fullShare.left
    | ⟨3, _⟩ => fullShare.right
    | _ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t
    = out2_5 (grid2.coords t) (iblk2 V c 0 t) (iblk2 V c 1 t) (iblk2 V c 2 t) (iblk2 V c 3 t) (iblk2 V c 4 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so `sound_kernel2` applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.FrameB.Chain.lean ====
/-
  The contents of a core's buffers at every boundary between two items of the program: the launch memory, then in turn
  what a kernel region leaves (its output array at what the grid points wrote back, every other buffer as entered) and
  what a stretch of host operations computes from the contents before it.  The four argument arrays are written by no
  item, so they hold their launch contents at the end.
-/
import proofs.«146164_j70952859730403_2_alg».proof.Proof.FrameB.Region0
import proofs.«146164_j70952859730403_2_alg».proof.Proof.FrameB.Region1
import proofs.«146164_j70952859730403_2_alg».proof.Proof.FrameB.Region2
import proofs.«146164_j70952859730403_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Core `c`'s buffers at launch: the first region's entry contents. -/
abbrev W0 : Dev nD → Valuation τ sig (Elt F) := fun c b => m (c, b)
/-- The same read at the TensorCore's references (what the first region's proof data take). -/
abbrev V0 : (c : Dev nD) → (b : Ref sig .tc) → Buf (Elt F) ((c : Thread nD τ).loc b) := fun c b => W0 m c b

/-- After the first region: its arrays at what the grid points leave, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the comparison of the degrees with zero and their reciprocal square roots, -/
abbrev W2 : Dev nD → Valuation τ sig (Elt F) := fun c => StableHlo.after hostOps1 (W1 m c)
/-- after the selection between the two, -/
abbrev W3 : Dev nD → Valuation τ sig (Elt F) := fun c => StableHlo.after hostOps1_1 (W2 m c)
/-- after the features are laid out as one matrix: the second region's entry contents. -/
abbrev W4 : Dev nD → Valuation τ sig (Elt F) := fun c => StableHlo.after hostOps1_2 (W3 m c)
abbrev V4 : (c : Dev nD) → (b : Ref sig .tc) → Buf (Elt F) ((c : Thread nD τ).loc b) := fun c b => W4 m c b

/-- After the second region. -/
def W5 (c : Dev nD) : Valuation τ sig (Elt F) :=
  Pipeline.withArrays spec1 c (W4 m c) fun w => (dat1 (V4 m) c).arrAt w cfg1.N
theorem W5_arr (c : Dev nD) (w : Fin cfg1.W) :
    W5 m c (Proc.devRef .tc (Pipeline.arrRef spec1 w)) = (dat1 (V4 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
abbrev V5 : (c : Dev nD) → (b : Ref sig .tc) → Buf (Elt F) ((c : Thread nD τ).loc b) := fun c b => W5 m c b
theorem hF1 (c : Dev nD) (w : Fin cfg1.W) : (dat1 (V4 m) c).arrAt w cfg1.N = V5 m c (Pipeline.arrRef spec1 w) :=
  (W5_arr m c w).symm
theorem hrest1 (c : Dev nD) : ∀ b, b ∉ Finset.univ.image (Pipeline.arrRef spec1) → V5 m c b = V4 m c b :=
  fun b hb => W5_of_ne m c b fun w e => hb (Finset.mem_image.mpr ⟨w, Finset.mem_univ _, e⟩)

/-- After the linear layer's result is laid out per graph again: the third region's entry contents. -/
abbrev W6 : Dev nD → Valuation τ sig (Elt F) := fun c => StableHlo.after hostOps2 (W5 m c)
abbrev V6 : (c : Dev nD) → (b : Ref sig .tc) → Buf (Elt F) ((c : Thread nD τ).loc b) := fun c b => W6 m c b

/-- After the third region: only its output array changes (two of its windows read one array, and every input array is
    left as entered). -/
def W7 (c : Dev nD) : Valuation τ sig (Elt F) :=
  Function.update (W6 m c) (Proc.devRef .tc main_v8) ((dat2 (V6 m) c).arrAt 5 cfg2.N)
theorem W7_out (c : Dev nD) : W7 m c (Proc.devRef .tc main_v8) = (dat2 (V6 m) c).arrAt 5 cfg2.N := by
  unfold W7; exact Function.update_self _ _ _
theorem W7_of_ne (c : Dev nD) (b : Ref sig .tc) (hb : b ≠ main_v8) :
    W7 m c (Proc.devRef .tc b) = W6 m c (Proc.devRef .tc b) := by
  unfold W7; exact Function.update_of_ne (StableHlo.devRef_ne_of_ne hb) _ _
abbrev V7 : (c : Dev nD) → (b : Ref sig .tc) → Buf (Elt F) ((c : Thread nD τ).loc b) := fun c b => W7 m c b

/-! ## The arguments end as launched -/

theorem W7_arg (c : Dev nD) (b : Ref sig .tc) (h8 : b ≠ main_v8) (h2 : b ∉ (hostOps2_W : List (Ref sig .tc)))
    (h1 : ∀ w, Pipeline.arrRef spec1 w = b → (cfg1.win w).isOut = false)
    (h12 : b ∉ (hostOps1_2_W : List (Ref sig .tc))) (h11 : b ∉ (hostOps1_1_W : List (Ref sig .tc))) (h10 : b ∉ (hostOps1_W : List (Ref sig .tc)))
    (h0 : ∀ w, Pipeline.arrRef spec0 w = b → (cfg0.win w).isOut = false) :
    W7 m c (Proc.devRef .tc b) = m ((c : Thread nD τ).loc b) := by
  rw [W7_of_ne m c b h8]
  rw [show W6 m c (Proc.devRef .tc b) = W5 m c (Proc.devRef .tc b) from StableHlo.after_of_writes_sub hostOps2 _ hostOps2_writes h2]
  have e5 : W5 m c (Proc.devRef .tc b) = W4 m c (Proc.devRef .tc b) := by
    by_cases h : ∃ w, Pipeline.arrRef spec1 w = b
    · obtain ⟨w, rfl⟩ := h
      exact (W5_arr m c w).trans (((dat1 (V4 m) c).arrAt_in w (h1 w rfl) _).trans (A_eq1 (V4 m) c w))
    · exact W5_of_ne m c b fun w e => h ⟨w, e⟩
  rw [e5]
  rw [show W4 m c (Proc.devRef .tc b) = W3 m c (Proc.devRef .tc b) from StableHlo.after_of_writes_sub hostOps1_2 _ hostOps1_2_writes h12,
    show W3 m c (Proc.devRef .tc b) = W2 m c (Proc.devRef .tc b) from StableHlo.after_of_writes_sub hostOps1_1 _ hostOps1_1_writes h11,
    show W2 m c (Proc.devRef .tc b) = W1 m c (Proc.devRef .tc b) from StableHlo.after_of_writes_sub hostOps1 _ hostOps1_writes h10]
  by_cases h : ∃ w, Pipeline.arrRef spec0 w = b
  · obtain ⟨w, rfl⟩ := h
    exact (W1_arr m c w).trans (((dat0 (V0 m) c).arrAt_in w (h0 w rfl) _).trans (A_eq0 (V0 m) c w))
  · exact W1_of_ne m c b fun w e => h ⟨w, e⟩

theorem W7_main_arg0 (c : Dev nD) : W7 m c (Proc.devRef .tc main_arg0) = m ((c : Thread nD τ).loc main_arg0) :=
  W7_arg m c main_arg0 (by decide) (by decide) (by decide) (by decide) (by decide) (by decide) (by decide)
theorem W7_main_arg1 (c : Dev nD) : W7 m c (Proc.devRef .tc main_arg1) = m ((c : Thread nD τ).loc main_arg1) :=
  W7_arg m c main_arg1 (by decide) (by decide) (by decide) (by decide) (by decide) (by decide) (by decide)
theorem W7_main_arg2 (c : Dev nD) : W7 m c (Proc.devRef .tc main_arg2) = m ((c : Thread nD τ).loc main_arg2) :=
  W7_arg m c main_arg2 (by decide) (by decide) (by decide) (by decide) (by decide) (by decide) (by decide)
theorem W7_main_arg3 (c : Dev nD) : W7 m c (Proc.devRef .tc main_arg3) = m ((c : Thread nD τ).loc main_arg3) :=
  W7_arg m c main_arg3 (by decide) (by decide) (by decide) (by decide) (by decide) (by decide) (by decide)

end Cert.Kernel.Hand

end
-- ==== Proof.FrameB.Shared2.lean ====
/-
  The third region's arrays among a core's buffers.  Its six windows sit on FIVE distinct arrays: the third and the fourth
  window both read the degree scalings.  So the five buffers, each held whole at the full share, are the region's six
  arrays with the shared buffer's full share cut into its two halves, one per window; and back, the two halves of the
  shared buffer joined again.
-/
import proofs.«146164_j70952859730403_2_alg».proof.Proof.Gen.Kernel.Launch
import proofs.«146164_j70952859730403_2_alg».proof.Proof.Gen.Kernel.Skeleton
import proofs.«146164_j70952859730403_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«146164_j70952859730403_2_alg».proof.Proof.FrameB.Region2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The five distinct arrays behind the six windows. -/
theorem arrRefs2 : Finset.univ.image (Pipeline.arrRef spec2) = ([main_arg1, main_v7, main_v4, main_arg3, main_v8] : List (Ref sig .tc)).toFinset := by decide

theorem share2_0 (c : Dev nD) : (dat2 V c).share 0 = fullShare := rfl
theorem share2_1 (c : Dev nD) : (dat2 V c).share 1 = fullShare := rfl
theorem share2_2 (c : Dev nD) : (dat2 V c).share 2 = fullShare.left := rfl
theorem share2_3 (c : Dev nD) : (dat2 V c).share 3 = fullShare.right := rfl
theorem share2_4 (c : Dev nD) : (dat2 V c).share 4 = fullShare := rfl
theorem share2_5 (c : Dev nD) : (dat2 V c).share 5 = fullShare := rfl

/-- The five buffers one by one. -/
theorem arrBufs2_eq (c : Dev nD) (V' : (b : Ref sig .tc) → Buf (Elt F) ((c : Thread nD τ).loc b)) :
    (Pipeline.arrBufs (Ix := Unit) (Name := ℕ) (U := UR sig nD τ) (Lvl := ℕ) spec2 c V' : sProp 𝕄)
      = iprop((((c : Thread nD τ).loc main_arg1) ↦{fullShare} V' main_arg1) ∗ (((c : Thread nD τ).loc main_v7) ↦{fullShare} V' main_v7)
          ∗ (((c : Thread nD τ).loc main_v4) ↦{fullShare} V' main_v4) ∗ (((c : Thread nD τ).loc main_arg3) ↦{fullShare} V' main_arg3)
          ∗ (((c : Thread nD τ).loc main_v8) ↦{fullShare} V' main_v8)) := by
  unfold Pipeline.arrBufs
  exact bigSep_eq_bigSepL_of_eq _ arrRefs2 (by decide) _

/-- The five buffers at contents `V'` are the region's six arrays at `V'`'s contents: the shared buffer's full share is
    cut into its halves. -/
theorem arrays2_of_bufs (c : Dev nD) (V' : (b : Ref sig .tc) → Buf (Elt F) ((c : Thread nD τ).loc b))
    (Fw : (w : Fin cfg2.W) → Buf (Elt F) ((cfg2.win w).arr.view.loc (c.tc : Thread nD τ))) (hF : ∀ w, Fw w = V' (Pipeline.arrRef spec2 w)) :
    (Pipeline.arrBufs (Ix := Unit) (Name := ℕ) (U := UR sig nD τ) (Lvl := ℕ) spec2 c V' : sProp 𝕄)
      ⊢ (dat2 V c).arrays Fw := by
  rw [arrBufs2_eq]
  unfold Dat.arrays
  rw [bigSep_W2]
  rw [(arr_whole2 0).set_eq_univ, (arr_whole2 1).set_eq_univ, (arr_whole2 2).set_eq_univ, (arr_whole2 4).set_eq_univ,
    (arr_whole2 5).set_eq_univ, share2_0, share2_1, share2_2, share2_3, share2_4, share2_5, hF 0, hF 1, hF 2, hF 3, hF 4, hF 5]
  iintro ⟨H1, H7, H4, H3, H8⟩
  ihave H4' := (pointsTo_share (PosShare.mem_left_op_right fullShare)).1 $$ H4
  icases H4' with ⟨H4l, H4r⟩
  isplitl [H1]; · iexact H1
  isplitl [H7]; · iexact H7
  isplitl [H4l]; · iexact H4l
  isplitl [H4r]; · iexact H4r
  isplitl [H3]; · iexact H3
  iexact H8

/-- And back: the six arrays at `V'`'s contents are the five buffers at `V'`, the two halves joined. -/
theorem bufs_of_arrays2 (c : Dev nD) (V' : (b : Ref sig .tc) → Buf (Elt F) ((c : Thread nD τ).loc b))
    (Fw : (w : Fin cfg2.W) → Buf (Elt F) ((cfg2.win w).arr.view.loc (c.tc : Thread nD τ))) (hF : ∀ w, Fw w = V' (Pipeline.arrRef spec2 w)) :
    (dat2 V c).arrays Fw
      ⊢ (Pipeline.arrBufs (Ix := Unit) (Name := ℕ) (U := UR sig nD τ) (Lvl := ℕ) spec2 c V' : sProp 𝕄) := by
  rw [arrBufs2_eq]
  unfold Dat.arrays
  rw [bigSep_W2]
  rw [(arr_whole2 0).set_eq_univ, (arr_whole2 1).set_eq_univ, (arr_whole2 2).set_eq_univ, (arr_whole2 4).set_eq_univ,
    (arr_whole2 5).set_eq_univ, share2_0, share2_1, share2_2, share2_3, share2_4, share2_5, hF 0, hF 1, hF 2, hF 3, hF 4, hF 5]
  iintro ⟨H1, H7, H4l, H4r, H3, H8⟩
  ihave H4 := (pointsTo_share (PosShare.mem_left_op_right fullShare)).2 $$ [H4l H4r]
  · isplitl [H4l] <;> iassumption
  isplitl [H1]; · iexact H1
  isplitl [H7]; · iexact H7
  isplitl [H4]; · iexact H4
  isplitl [H3]; · iexact H3
  iexact H8

end Cert.Kernel.Hand

end
-- ==== Proof.FrameB.Run.lean ====
/-
  The whole program run from the launch to the return: the three kernel regions among the stretches of host operations,
  composed in order.  Every weakly fair execution terminates, nothing faults, and the final memory holds every unscoped
  buffer at the last boundary's contents — in particular the result array at what the third region's grid points wrote
  back, and the four argument arrays at their launch contents.
-/
import proofs.«146164_j70952859730403_2_alg».proof.Proof.Gen.Kernel.Launch
import proofs.«146164_j70952859730403_2_alg».proof.Proof.Gen.Kernel.Skeleton
import proofs.«146164_j70952859730403_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«146164_j70952859730403_2_alg».proof.Proof.FrameB.Chain
import proofs.«146164_j70952859730403_2_alg».proof.Proof.FrameB.Shared2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- Every region's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V4 m) c
  | ⟨2, _⟩ => fun c => dat2 (V6 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)
/-- A stretch of host operations as an item, over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register. -/
abbrev Tₙ (c : Dev nD) : sProp 𝕄 := iprop(StableHlo.held (c : Thread nD τ) (Pipeline.ucRefs τ sig) (W7 m c) ∗ ∃ r, prngReg c r)

/-! ## The regions as items -/

-- a library lemma stated over the pinned configuration unifies with the printed one only when unification may unfold
-- plain definitions in a metavariable's type
set_option backward.isDefEq.respectTransparency.types false in
/-- Region 0 over the thread state "every unscoped buffer at the boundary's contents, the generator register at some state,
    nothing owed": its arrays split out of the unscoped buffers at entry and put back at the exit contents; the generator
    register into the region's invariant and out; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state "every unscoped buffer at the boundary's contents, the generator register at some state,
    nothing owed": its arrays split out of the unscoped buffers at entry and put back at the exit contents; the generator
    register into the region's invariant and out; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m) c).loose
  hwaits := Pipeline.hwaits_of_owed_zero _ _ _ _ L lv 1 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec1 c (V4 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V4 m c) (V5 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At the third region's exit each of its arrays holds the last boundary's contents: the inputs as entered, the output
    what the grid points wrote back. -/
theorem exit2 (c : Dev nD) : ∀ w : Fin cfg2.W, (dat2 (V6 m) c).arrAt w cfg2.N = V7 m c (Pipeline.arrRef spec2 w)
  | ⟨0, _⟩ => (((dat2 (V6 m) c).arrAt_in 0 rfl _).trans (A_eq2 (V6 m) c 0)).trans (W7_of_ne m c main_arg1 (by decide)).symm
  | ⟨1, _⟩ => (((dat2 (V6 m) c).arrAt_in 1 rfl _).trans (A_eq2 (V6 m) c 1)).trans (W7_of_ne m c main_v7 (by decide)).symm
  | ⟨2, _⟩ => (((dat2 (V6 m) c).arrAt_in 2 rfl _).trans (A_eq2 (V6 m) c 2)).trans (W7_of_ne m c main_v4 (by decide)).symm
  | ⟨3, _⟩ => (((dat2 (V6 m) c).arrAt_in 3 rfl _).trans (A_eq2 (V6 m) c 3)).trans (W7_of_ne m c main_v4 (by decide)).symm
  | ⟨4, _⟩ => (((dat2 (V6 m) c).arrAt_in 4 rfl _).trans (A_eq2 (V6 m) c 4)).trans (W7_of_ne m c main_arg3 (by decide)).symm
  | ⟨5, _⟩ => (W7_out m c).symm
  | ⟨_ + 6, h⟩ => absurd h (Nat.not_lt.2 (Nat.le_add_left _ _))

/-- The unscoped rest of the third region does not contain its output array, so it reads the same at the entry and at the
    exit contents. -/
theorem rest2_eq (c : Dev nD) :
    (Pipeline.unscopedRest (Ix := Unit) (Name := ℕ) (U := UR sig nD τ) (Lvl := ℕ) spec2 c (V6 m c) : sProp 𝕄)
      = Pipeline.unscopedRest spec2 c (V7 m c) := by
  unfold Pipeline.unscopedRest
  refine bigSep_congr fun b hb => ?_
  have hb8 : b ≠ main_v8 := fun e => (Finset.mem_sdiff.mp hb).2 (e ▸ Finset.mem_image.mpr ⟨5, Finset.mem_univ _, rfl⟩)
  rw [show V7 m c b = V6 m c b from W7_of_ne m c b hb8]

set_option backward.isDefEq.respectTransparency.types false in
/-- Region 2: as the others, except that its six windows sit on five arrays (the shared one held at the two halves of the
    full share), so the arrays are sorted out of, and back into, the unscoped buffers by hand. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (V6 m) c).loose
  hwaits := Pipeline.hwaits_of_owed_zero _ _ _ _ L lv 2 fun _ _ => rfl
  pre c := iprop(StableHlo.held (c : Thread nD τ) (Pipeline.ucRefs τ sig) (W6 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V6 m c)
  hentry c := by
    rw [Pipeline.ownSems0_none]
    have hsplit : (StableHlo.held (c : Thread nD τ) (Pipeline.ucRefs τ sig) (W6 m c) : sProp 𝕄)
        ⊢ iprop((pdats m 2 c).arrays ((pdats m 2 c).arrAt · 0)
            ∗ Pipeline.unscopedRest (Ix := Unit) (Name := ℕ) (U := UR sig nD τ) (Lvl := ℕ) spec2 c (V6 m c)) := by
      rw [← Pipeline.unscopedBufs_held c (W6 m c), Pipeline.unscopedBufs_split₀ cfgs 2 winFacts₀2.arr_unscoped c (V6 m c)]
      exact sep_mono (arrays2_of_bufs (V6 m) c (V6 m c) _ fun _ => rfl) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m 2 c).arrays ((pdats m 2 c).arrAt · cfg2.N)
          ∗ Pipeline.unscopedRest (Ix := Unit) (Name := ℕ) (U := UR sig nD τ) (Lvl := ℕ) spec2 c (V6 m c))
        ⊢ (StableHlo.held (c : Thread nD τ) (Pipeline.ucRefs τ sig) (W7 m c) : sProp 𝕄) := by
      rw [← Pipeline.unscopedBufs_held c (W7 m c), Pipeline.unscopedBufs_split₀ cfgs 2 winFacts₀2.arr_unscoped c (V7 m c), rest2_eq m c]
      exact sep_mono (bufs_of_arrays2 (V6 m) c (V7 m c) _ (exit2 m c)) .rfl
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its items, and the launch -/

/-- The program's seven items in order. -/
abbrev msegs : List (Pipeline.Seg (pcfgs (F := F)) adm (pdats m) () defs₀ 𝒱₀ L lv) :=
  [ .region (reg0 m),
    .host (hseg hostOps1 hostOps1_sub hostOps1_fresh (W1 m)),
    .host (hseg hostOps1_1 hostOps1_1_sub hostOps1_1_fresh (W2 m)),
    .host (hseg hostOps1_2 hostOps1_2_sub hostOps1_2_fresh (W3 m)),
    .region (reg1 m),
    .host (hseg hostOps2 hostOps2_sub hostOps2_fresh (W5 m)),
    .region (reg2 m) ]
/-- The program IS the run of the items. -/
theorem main_run (c : Dev nD) : main (F := F) c = Pipeline.Seg.run (msegs m) := (main_chain c).trans (by chain_rfl)

set_option backward.isDefEq.respectTransparency.types false in
/-- THE RUN: at the compiled mesh, from any memory with zero counters, every weakly fair execution of the program on the
    TensorCores terminates, nothing faulting, and every final memory holds each unscoped buffer of every core at the last
    boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (msegs m)
    (fun c Q => by rw [main_run m c])
    (by simp only [msegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

/-- The result array ends at what the third region's grid points wrote back, and the four argument arrays as launched. -/
theorem run_result : θ_run defs (onTc (τ := τ) (main (F := F))) ⟨m, fun _ => 0, ρ⟩ (fun r => ∀ c : Dev nD,
      r.2.mem ((c.tc : Thread nD τ).loc main_v8) = (dat2 (V6 m) c).arrAt 5 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v8 (by decide))).trans (W7_out m c),
     (h c _ (mem_uc main_arg0 (by decide))).trans (W7_main_arg0 m c),
     (h c _ (mem_uc main_arg1 (by decide))).trans (W7_main_arg1 m c),
     (h c _ (mem_uc main_arg2 (by decide))).trans (W7_main_arg2 m c),
     (h c _ (mem_uc main_arg3 (by decide))).trans (W7_main_arg3 m c)⟩) (run_all m ρ)

/-- The frame: the program runs to the end, faults nowhere, and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => (h c).2) (run_result m ρ)

end Cert.Kernel.Hand

end
-- ==== Proof.FrameI.Region0.lean ====
/-
  The first kernel region (the node degrees): what its body leaves in its output block at a grid point — the row sums of
  the edge indicator of a tile of 512 rows —, the body's triple, the region's proof data and the body obligation, at any
  float instance and at any contents `V` of the core's buffers when the region is entered.
-/
import proofs.«146164_j70952859730403_2_alg».proof.Proof.Gen.KernelIdeal.Launch
import proofs.«146164_j70952859730403_2_alg».proof.Proof.Gen.KernelIdeal.Skeleton
import proofs.«146164_j70952859730403_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each window's whole block -/
abbrev r0_0 : Rect S1x512x2048 := Rect.unit (s := S1x512x2048) ![0, 0, 0] S1x512x2048.size inb_S1x512x2048_S1x512x2048_0_0_0
abbrev r0_1 : Rect S1x512x1 := Rect.unit (s := S1x512x1) ![0, 0, 0] S1x512x1.size inb_S1x512x1_S1x512x1_0_0_0

/-! ## What the body leaves in the output window's buffer -/

/-- The output block after the body at grid coordinates `i`, from the input blocks: one store of the whole block. -/
def out0_1 (i : grid0.Coords) (x0 : Vec F S1x512x2048 .f32) : Vec F S1x512x1 .f32 :=
  View.canon [⟨r0_1, k0_pay1 i (View.ld x0 r0_0)⟩]

/-- The one store covers the block. -/
theorem cover0_1 (p0 : Vec F S1x512x1 .f32) (y : S1x512x1.Idx) :
    ∃ pc ∈ ([⟨r0_1, p0⟩] : List (View.Piece (Elt F) S1x512x1 .f32)), y ∈ pc.1.set :=
  View.cover_of_tiled [⟨r0_1, p0⟩] S1x512x1.size (by rfl) y

/-! ## The body's triple -/

set_option maxHeartbeats 1000000 in
/-- The body on whole staging memrefs, the inputs' at read contents and the output's at anything, runs to the continuation
    holding the inputs' as they were and the output's at `out0_1` of the inputs'. -/
theorem sound_kernel0 (c : Dev nD) (E : Set ℕ) (i : grid0.Coords) (arg2 : Memref sig .tc .vmem S1x512x2048 .f32) (harg2 : arg2.IsWhole) (arg3 : Memref sig .tc .vmem S1x512x1 .f32) (harg3 : arg3.IsWhole)
    (x0 : Vec F S1x512x2048 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out0_1 i x0)) -∗ K ⟨⟩))
      ⊢ wp frame (wpE (defs₀ (F := F)) Variants.none c none) E (cc0__degree_kernel i arg2 harg2 arg3 harg3) K := by
  simp only [cc0__degree_kernel_eq_skeleton]; unfold cc0__degree_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The region's proof data -/

/-- The proof data of the region on core `c`: the arrays as the region finds them; after the body at point `t` each
    input's buffer at its block and the output's at `out0_1` of the input blocks; the invariant is the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (grid0.coords t) (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t
    = out0_1 (grid0.coords t) (iblk0 V c 0 t) := by dsimp only [dat0]
theorem before0_0 (c : Dev nD) (t : Fin cfg0.N) (d) : (dat0 V c).before 0 t d = iblk0 V c 0 t :=
  before0_0_of V (dat0 V c) (A_eq0 V c 0) (after0_0 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ (grid0.coords t) _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.FrameI.Region1.lean ====
/-
  The second kernel region (the linear layer): what its body leaves in its output block at a grid point — a tile of 1024
  rows of the features times the weight matrix —, the body's triple, the region's proof data and the body obligation, at
  any float instance and at any contents `V` of the core's buffers when the region is entered.
-/
import proofs.«146164_j70952859730403_2_alg».proof.Proof.Gen.KernelIdeal.Launch
import proofs.«146164_j70952859730403_2_alg».proof.Proof.Gen.KernelIdeal.Skeleton
import proofs.«146164_j70952859730403_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each window's whole block -/
abbrev r1_0 : Rect S1024x512 := Rect.unit (s := S1024x512) ![0, 0] S1024x512.size inb_S1024x512_S1024x512_0_0
abbrev r1_1 : Rect S512x512 := Rect.unit (s := S512x512) ![0, 0] S512x512.size inb_S512x512_S512x512_0_0
abbrev r1_2 : Rect S1024x512 := Rect.unit (s := S1024x512) ![0, 0] S1024x512.size inb_S1024x512_S1024x512_0_0

/-! ## What the body leaves in the output window's buffer -/

/-- The output block after the body at grid coordinates `i`, from the input blocks: one store of the whole block. -/
def out1_2 (i : grid1.Coords) (x0 : Vec F S1024x512 .f32) (x1 : Vec F S512x512 .f32) : Vec F S1024x512 .f32 :=
  View.canon [⟨r1_2, k1_pay1 (View.ld x0 r1_0) (View.ld x1 r1_1)⟩]

/-- The one store covers the block. -/
theorem cover1_2 (p0 : Vec F S1024x512 .f32) (y : S1024x512.Idx) :
    ∃ pc ∈ ([⟨r1_2, p0⟩] : List (View.Piece (Elt F) S1024x512 .f32)), y ∈ pc.1.set :=
  View.cover_of_tiled [⟨r1_2, p0⟩] S1024x512.size (by rfl) y

/-! ## The body's triple -/

set_option maxHeartbeats 1000000 in
/-- The body on whole staging memrefs, the inputs' at read contents and the output's at anything, runs to the continuation
    holding the inputs' as they were and the output's at `out1_2` of the inputs'. -/
theorem sound_kernel1 (c : Dev nD) (E : Set ℕ) (i : grid1.Coords) (arg1 : Memref sig .tc .vmem S1024x512 .f32) (harg1 : arg1.IsWhole) (arg2 : Memref sig .tc .vmem S512x512 .f32) (harg2 : arg2.IsWhole) (arg3 : Memref sig .tc .vmem S1024x512 .f32) (harg3 : arg3.IsWhole)
    (x0 : Vec F S1024x512 .f32) (x1 : Vec F S512x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 i x0 x1)) -∗ K ⟨⟩))
      ⊢ wp frame (wpE (defs₀ (F := F)) Variants.none c none) E (cc1__linear_kernel i arg1 harg1 arg2 harg2 arg3 harg3) K := by
  simp only [cc1__linear_kernel_eq_skeleton]; unfold cc1__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The region's proof data -/

/-- The proof data of the region on core `c`: the arrays as the region finds them; after the body at point `t` each
    input's buffer at its block and the output's at `out1_2` of the input blocks; the invariant is the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (grid1.coords t) (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t
    = out1_2 (grid1.coords t) (iblk1 V c 0 t) (iblk1 V c 1 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.FrameI.Region2.lean ====
/-
  The third kernel region (the aggregation): what its body leaves in its output block at a grid point, the body's
  triple, the region's proof data and the body obligation, at any float instance and at any contents `V` of the
  core's buffers when the region is entered.  The region has six windows: the adjacency row tile, the features of all
  nodes, the row tile's degree scalings, the degree scalings of all nodes, the bias, and the output tile.  The third
  and the fourth window read ONE array (the degree scalings), so that array is held at the two halves of the full
  share, one per window; every other input array at the full share.
-/
import proofs.«146164_j70952859730403_2_alg».proof.Proof.Gen.KernelIdeal.Launch
import proofs.«146164_j70952859730403_2_alg».proof.Proof.Gen.KernelIdeal.Skeleton
import proofs.«146164_j70952859730403_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each window's whole block -/
abbrev r2_0 : Rect S1x512x2048 := Rect.unit (s := S1x512x2048) ![0, 0, 0] S1x512x2048.size inb_S1x512x2048_S1x512x2048_0_0_0
abbrev r2_1 : Rect S1x2048x512 := Rect.unit (s := S1x2048x512) ![0, 0, 0] S1x2048x512.size inb_S1x2048x512_S1x2048x512_0_0_0
abbrev r2_2 : Rect S1x512x1 := Rect.unit (s := S1x512x1) ![0, 0, 0] S1x512x1.size inb_S1x512x1_S1x512x1_0_0_0
abbrev r2_3 : Rect S1x2048x1 := Rect.unit (s := S1x2048x1) ![0, 0, 0] S1x2048x1.size inb_S1x2048x1_S1x2048x1_0_0_0
abbrev r2_4 : Rect S512 := Rect.unit (s := S512) ![0] S512.size inb_S512_S512_0
abbrev r2_5 : Rect S1x512x512 := Rect.unit (s := S1x512x512) ![0, 0, 0] S1x512x512.size inb_S1x512x512_S1x512x512_0_0_0

/-! ## What the body leaves in the output window's buffer -/

/-- The output tile after the body at grid coordinates `i`, from the five input blocks: one store of the whole tile. -/
def out2_5 (i : grid2.Coords) (x0 : Vec F S1x512x2048 .f32) (x1 : Vec F S1x2048x512 .f32) (x2 : Vec F S1x512x1 .f32) (x3 : Vec F S1x2048x1 .f32) (x4 : Vec F S512 .f32) : Vec F S1x512x512 .f32 :=
  View.canon [⟨r2_5, k2_pay1 i (View.ld x0 r2_0) (View.ld x3 r2_3) (View.ld x1 r2_1) (View.ld x2 r2_2) (View.ld x4 r2_4)⟩]

/-- The one store covers the tile. -/
theorem cover2_5 (p0 : Vec F S1x512x512 .f32) (y : S1x512x512.Idx) :
    ∃ pc ∈ ([⟨r2_5, p0⟩] : List (View.Piece (Elt F) S1x512x512 .f32)), y ∈ pc.1.set :=
  View.cover_of_tiled [⟨r2_5, p0⟩] S1x512x512.size (by rfl) y

/-! ## The body's triple -/

set_option maxHeartbeats 1000000 in
/-- The body on whole staging memrefs, the inputs' at read contents and the output's at anything, runs to the continuation
    holding the inputs' as they were and the output's at `out2_5` of the inputs'. -/
theorem sound_kernel2 (c : Dev nD) (E : Set ℕ) (i : grid2.Coords)
    (arg2 : Memref sig .tc .vmem S1x512x2048 .f32) (harg2 : arg2.IsWhole) (arg3 : Memref sig .tc .vmem S1x2048x512 .f32) (harg3 : arg3.IsWhole)
    (arg4 : Memref sig .tc .vmem S1x512x1 .f32) (harg4 : arg4.IsWhole) (arg5 : Memref sig .tc .vmem S1x2048x1 .f32) (harg5 : arg5.IsWhole)
    (arg6 : Memref sig .tc .vmem S512 .f32) (harg6 : arg6.IsWhole) (arg7 : Memref sig .tc .vmem S1x512x512 .f32) (harg7 : arg7.IsWhole)
    (x0 : Vec F S1x512x2048 .f32) (x1 : Vec F S1x2048x512 .f32) (x2 : Vec F S1x512x1 .f32) (x3 : Vec F S1x2048x1 .f32) (x4 : Vec F S512 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out2_5 i x0 x1 x2 x3 x4)) -∗ K ⟨⟩))
      ⊢ wp frame (wpE (defs₀ (F := F)) Variants.none c none) E (cc2__agg_kernel i arg2 harg2 arg3 harg3 arg4 harg4 arg5 harg5 arg6 harg6 arg7 harg7) K := by
  simp only [cc2__agg_kernel_eq_skeleton]; unfold cc2__agg_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The region's proof data -/

/-- The proof data of the region on core `c`: the arrays as the region finds them; after the body at point `t` each
    input's buffer at its block and the output's at `out2_5` of the input blocks; the invariant is the scoped rest and the
    generator register, untouched; nothing owed; the array the third and fourth windows share at the two halves of the
    full share, every other input at the full share. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (grid2.coords t) (iblk2 V c 0 t) (iblk2 V c 1 t) (iblk2 V c 2 t) (iblk2 V c 3 t) (iblk2 V c 4 t)
  Φ _ := Pipeline.ΦA spec2 c
  q w := match w with
    | ⟨2, _⟩ => fullShare.left
    | ⟨3, _⟩ => fullShare.right
    | _ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t
    = out2_5 (grid2.coords t) (iblk2 V c 0 t) (iblk2 V c 1 t) (iblk2 V c 2 t) (iblk2 V c 3 t) (iblk2 V c 4 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so `sound_kernel2` applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.FrameI.Chain.lean ====
/-
  The contents of a core's buffers at every boundary between two items of the program: the launch memory, then in turn
  what a kernel region leaves (its output array at what the grid points wrote back, every other buffer as entered) and
  what a stretch of host operations computes from the contents before it.  The four argument arrays are written by no
  item, so they hold their launch contents at the end.
-/
import proofs.«146164_j70952859730403_2_alg».proof.Proof.FrameI.Region0
import proofs.«146164_j70952859730403_2_alg».proof.Proof.FrameI.Region1
import proofs.«146164_j70952859730403_2_alg».proof.Proof.FrameI.Region2
import proofs.«146164_j70952859730403_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Core `c`'s buffers at launch: the first region's entry contents. -/
abbrev W0 : Dev nD → Valuation τ sig (Elt F) := fun c b => m (c, b)
/-- The same read at the TensorCore's references (what the first region's proof data take). -/
abbrev V0 : (c : Dev nD) → (b : Ref sig .tc) → Buf (Elt F) ((c : Thread nD τ).loc b) := fun c b => W0 m c b

/-- After the first region: its arrays at what the grid points leave, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the comparison of the degrees with zero and their reciprocal square roots, -/
abbrev W2 : Dev nD → Valuation τ sig (Elt F) := fun c => StableHlo.after hostOps1 (W1 m c)
/-- after the selection between the two, -/
abbrev W3 : Dev nD → Valuation τ sig (Elt F) := fun c => StableHlo.after hostOps1_1 (W2 m c)
/-- after the features are laid out as one matrix: the second region's entry contents. -/
abbrev W4 : Dev nD → Valuation τ sig (Elt F) := fun c => StableHlo.after hostOps1_2 (W3 m c)
abbrev V4 : (c : Dev nD) → (b : Ref sig .tc) → Buf (Elt F) ((c : Thread nD τ).loc b) := fun c b => W4 m c b

/-- After the second region. -/
def W5 (c : Dev nD) : Valuation τ sig (Elt F) :=
  Pipeline.withArrays spec1 c (W4 m c) fun w => (dat1 (V4 m) c).arrAt w cfg1.N
theorem W5_arr (c : Dev nD) (w : Fin cfg1.W) :
    W5 m c (Proc.devRef .tc (Pipeline.arrRef spec1 w)) = (dat1 (V4 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
abbrev V5 : (c : Dev nD) → (b : Ref sig .tc) → Buf (Elt F) ((c : Thread nD τ).loc b) := fun c b => W5 m c b
theorem hF1 (c : Dev nD) (w : Fin cfg1.W) : (dat1 (V4 m) c).arrAt w cfg1.N = V5 m c (Pipeline.arrRef spec1 w) :=
  (W5_arr m c w).symm
theorem hrest1 (c : Dev nD) : ∀ b, b ∉ Finset.univ.image (Pipeline.arrRef spec1) → V5 m c b = V4 m c b :=
  fun b hb => W5_of_ne m c b fun w e => hb (Finset.mem_image.mpr ⟨w, Finset.mem_univ _, e⟩)

/-- After the linear layer's result is laid out per graph again: the third region's entry contents. -/
abbrev W6 : Dev nD → Valuation τ sig (Elt F) := fun c => StableHlo.after hostOps2 (W5 m c)
abbrev V6 : (c : Dev nD) → (b : Ref sig .tc) → Buf (Elt F) ((c : Thread nD τ).loc b) := fun c b => W6 m c b

/-- After the third region: only its output array changes (two of its windows read one array, and every input array is
    left as entered). -/
def W7 (c : Dev nD) : Valuation τ sig (Elt F) :=
  Function.update (W6 m c) (Proc.devRef .tc main_v8) ((dat2 (V6 m) c).arrAt 5 cfg2.N)
theorem W7_out (c : Dev nD) : W7 m c (Proc.devRef .tc main_v8) = (dat2 (V6 m) c).arrAt 5 cfg2.N := by
  unfold W7; exact Function.update_self _ _ _
theorem W7_of_ne (c : Dev nD) (b : Ref sig .tc) (hb : b ≠ main_v8) :
    W7 m c (Proc.devRef .tc b) = W6 m c (Proc.devRef .tc b) := by
  unfold W7; exact Function.update_of_ne (StableHlo.devRef_ne_of_ne hb) _ _
abbrev V7 : (c : Dev nD) → (b : Ref sig .tc) → Buf (Elt F) ((c : Thread nD τ).loc b) := fun c b => W7 m c b

/-! ## The arguments end as launched -/

theorem W7_arg (c : Dev nD) (b : Ref sig .tc) (h8 : b ≠ main_v8) (h2 : b ∉ (hostOps2_W : List (Ref sig .tc)))
    (h1 : ∀ w, Pipeline.arrRef spec1 w = b → (cfg1.win w).isOut = false)
    (h12 : b ∉ (hostOps1_2_W : List (Ref sig .tc))) (h11 : b ∉ (hostOps1_1_W : List (Ref sig .tc))) (h10 : b ∉ (hostOps1_W : List (Ref sig .tc)))
    (h0 : ∀ w, Pipeline.arrRef spec0 w = b → (cfg0.win w).isOut = false) :
    W7 m c (Proc.devRef .tc b) = m ((c : Thread nD τ).loc b) := by
  rw [W7_of_ne m c b h8]
  rw [show W6 m c (Proc.devRef .tc b) = W5 m c (Proc.devRef .tc b) from StableHlo.after_of_writes_sub hostOps2 _ hostOps2_writes h2]
  have e5 : W5 m c (Proc.devRef .tc b) = W4 m c (Proc.devRef .tc b) := by
    by_cases h : ∃ w, Pipeline.arrRef spec1 w = b
    · obtain ⟨w, rfl⟩ := h
      exact (W5_arr m c w).trans (((dat1 (V4 m) c).arrAt_in w (h1 w rfl) _).trans (A_eq1 (V4 m) c w))
    · exact W5_of_ne m c b fun w e => h ⟨w, e⟩
  rw [e5]
  rw [show W4 m c (Proc.devRef .tc b) = W3 m c (Proc.devRef .tc b) from StableHlo.after_of_writes_sub hostOps1_2 _ hostOps1_2_writes h12,
    show W3 m c (Proc.devRef .tc b) = W2 m c (Proc.devRef .tc b) from StableHlo.after_of_writes_sub hostOps1_1 _ hostOps1_1_writes h11,
    show W2 m c (Proc.devRef .tc b) = W1 m c (Proc.devRef .tc b) from StableHlo.after_of_writes_sub hostOps1 _ hostOps1_writes h10]
  by_cases h : ∃ w, Pipeline.arrRef spec0 w = b
  · obtain ⟨w, rfl⟩ := h
    exact (W1_arr m c w).trans (((dat0 (V0 m) c).arrAt_in w (h0 w rfl) _).trans (A_eq0 (V0 m) c w))
  · exact W1_of_ne m c b fun w e => h ⟨w, e⟩

theorem W7_main_arg0 (c : Dev nD) : W7 m c (Proc.devRef .tc main_arg0) = m ((c : Thread nD τ).loc main_arg0) :=
  W7_arg m c main_arg0 (by decide) (by decide) (by decide) (by decide) (by decide) (by decide) (by decide)
theorem W7_main_arg1 (c : Dev nD) : W7 m c (Proc.devRef .tc main_arg1) = m ((c : Thread nD τ).loc main_arg1) :=
  W7_arg m c main_arg1 (by decide) (by decide) (by decide) (by decide) (by decide) (by decide) (by decide)
theorem W7_main_arg2 (c : Dev nD) : W7 m c (Proc.devRef .tc main_arg2) = m ((c : Thread nD τ).loc main_arg2) :=
  W7_arg m c main_arg2 (by decide) (by decide) (by decide) (by decide) (by decide) (by decide) (by decide)
theorem W7_main_arg3 (c : Dev nD) : W7 m c (Proc.devRef .tc main_arg3) = m ((c : Thread nD τ).loc main_arg3) :=
  W7_arg m c main_arg3 (by decide) (by decide) (by decide) (by decide) (by decide) (by decide) (by decide)

end Cert.KernelIdeal.Hand

end
-- ==== Proof.FrameI.Shared2.lean ====
/-
  The third region's arrays among a core's buffers.  Its six windows sit on FIVE distinct arrays: the third and the fourth
  window both read the degree scalings.  So the five buffers, each held whole at the full share, are the region's six
  arrays with the shared buffer's full share cut into its two halves, one per window; and back, the two halves of the
  shared buffer joined again.
-/
import proofs.«146164_j70952859730403_2_alg».proof.Proof.Gen.KernelIdeal.Launch
import proofs.«146164_j70952859730403_2_alg».proof.Proof.Gen.KernelIdeal.Skeleton
import proofs.«146164_j70952859730403_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«146164_j70952859730403_2_alg».proof.Proof.FrameI.Region2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The five distinct arrays behind the six windows. -/
theorem arrRefs2 : Finset.univ.image (Pipeline.arrRef spec2) = ([main_arg1, main_v7, main_v4, main_arg3, main_v8] : List (Ref sig .tc)).toFinset := by decide

theorem share2_0 (c : Dev nD) : (dat2 V c).share 0 = fullShare := rfl
theorem share2_1 (c : Dev nD) : (dat2 V c).share 1 = fullShare := rfl
theorem share2_2 (c : Dev nD) : (dat2 V c).share 2 = fullShare.left := rfl
theorem share2_3 (c : Dev nD) : (dat2 V c).share 3 = fullShare.right := rfl
theorem share2_4 (c : Dev nD) : (dat2 V c).share 4 = fullShare := rfl
theorem share2_5 (c : Dev nD) : (dat2 V c).share 5 = fullShare := rfl

/-- The five buffers one by one. -/
theorem arrBufs2_eq (c : Dev nD) (V' : (b : Ref sig .tc) → Buf (Elt F) ((c : Thread nD τ).loc b)) :
    (Pipeline.arrBufs (Ix := Unit) (Name := ℕ) (U := UR sig nD τ) (Lvl := ℕ) spec2 c V' : sProp 𝕄)
      = iprop((((c : Thread nD τ).loc main_arg1) ↦{fullShare} V' main_arg1) ∗ (((c : Thread nD τ).loc main_v7) ↦{fullShare} V' main_v7)
          ∗ (((c : Thread nD τ).loc main_v4) ↦{fullShare} V' main_v4) ∗ (((c : Thread nD τ).loc main_arg3) ↦{fullShare} V' main_arg3)
          ∗ (((c : Thread nD τ).loc main_v8) ↦{fullShare} V' main_v8)) := by
  unfold Pipeline.arrBufs
  exact bigSep_eq_bigSepL_of_eq _ arrRefs2 (by decide) _

/-- The five buffers at contents `V'` are the region's six arrays at `V'`'s contents: the shared buffer's full share is
    cut into its halves. -/
theorem arrays2_of_bufs (c : Dev nD) (V' : (b : Ref sig .tc) → Buf (Elt F) ((c : Thread nD τ).loc b))
    (Fw : (w : Fin cfg2.W) → Buf (Elt F) ((cfg2.win w).arr.view.loc (c.tc : Thread nD τ))) (hF : ∀ w, Fw w = V' (Pipeline.arrRef spec2 w)) :
    (Pipeline.arrBufs (Ix := Unit) (Name := ℕ) (U := UR sig nD τ) (Lvl := ℕ) spec2 c V' : sProp 𝕄)
      ⊢ (dat2 V c).arrays Fw := by
  rw [arrBufs2_eq]
  unfold Dat.arrays
  rw [bigSep_W2]
  rw [(arr_whole2 0).set_eq_univ, (arr_whole2 1).set_eq_univ, (arr_whole2 2).set_eq_univ, (arr_whole2 4).set_eq_univ,
    (arr_whole2 5).set_eq_univ, share2_0, share2_1, share2_2, share2_3, share2_4, share2_5, hF 0, hF 1, hF 2, hF 3, hF 4, hF 5]
  iintro ⟨H1, H7, H4, H3, H8⟩
  ihave H4' := (pointsTo_share (PosShare.mem_left_op_right fullShare)).1 $$ H4
  icases H4' with ⟨H4l, H4r⟩
  isplitl [H1]; · iexact H1
  isplitl [H7]; · iexact H7
  isplitl [H4l]; · iexact H4l
  isplitl [H4r]; · iexact H4r
  isplitl [H3]; · iexact H3
  iexact H8

/-- And back: the six arrays at `V'`'s contents are the five buffers at `V'`, the two halves joined. -/
theorem bufs_of_arrays2 (c : Dev nD) (V' : (b : Ref sig .tc) → Buf (Elt F) ((c : Thread nD τ).loc b))
    (Fw : (w : Fin cfg2.W) → Buf (Elt F) ((cfg2.win w).arr.view.loc (c.tc : Thread nD τ))) (hF : ∀ w, Fw w = V' (Pipeline.arrRef spec2 w)) :
    (dat2 V c).arrays Fw
      ⊢ (Pipeline.arrBufs (Ix := Unit) (Name := ℕ) (U := UR sig nD τ) (Lvl := ℕ) spec2 c V' : sProp 𝕄) := by
  rw [arrBufs2_eq]
  unfold Dat.arrays
  rw [bigSep_W2]
  rw [(arr_whole2 0).set_eq_univ, (arr_whole2 1).set_eq_univ, (arr_whole2 2).set_eq_univ, (arr_whole2 4).set_eq_univ,
    (arr_whole2 5).set_eq_univ, share2_0, share2_1, share2_2, share2_3, share2_4, share2_5, hF 0, hF 1, hF 2, hF 3, hF 4, hF 5]
  iintro ⟨H1, H7, H4l, H4r, H3, H8⟩
  ihave H4 := (pointsTo_share (PosShare.mem_left_op_right fullShare)).2 $$ [H4l H4r]
  · isplitl [H4l] <;> iassumption
  isplitl [H1]; · iexact H1
  isplitl [H7]; · iexact H7
  isplitl [H4]; · iexact H4
  isplitl [H3]; · iexact H3
  iexact H8

end Cert.KernelIdeal.Hand

end
-- ==== Proof.FrameI.Run.lean ====
/-
  The whole program run from the launch to the return: the three kernel regions among the stretches of host operations,
  composed in order.  Every weakly fair execution terminates, nothing faults, and the final memory holds every unscoped
  buffer at the last boundary's contents — in particular the result array at what the third region's grid points wrote
  back, and the four argument arrays at their launch contents.
-/
import proofs.«146164_j70952859730403_2_alg».proof.Proof.Gen.KernelIdeal.Launch
import proofs.«146164_j70952859730403_2_alg».proof.Proof.Gen.KernelIdeal.Skeleton
import proofs.«146164_j70952859730403_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«146164_j70952859730403_2_alg».proof.Proof.FrameI.Chain
import proofs.«146164_j70952859730403_2_alg».proof.Proof.FrameI.Shared2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- Every region's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V4 m) c
  | ⟨2, _⟩ => fun c => dat2 (V6 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)
/-- A stretch of host operations as an item, over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register. -/
abbrev Tₙ (c : Dev nD) : sProp 𝕄 := iprop(StableHlo.held (c : Thread nD τ) (Pipeline.ucRefs τ sig) (W7 m c) ∗ ∃ r, prngReg c r)

/-! ## The regions as items -/

-- a library lemma stated over the pinned configuration unifies with the printed one only when unification may unfold
-- plain definitions in a metavariable's type
set_option backward.isDefEq.respectTransparency.types false in
/-- Region 0 over the thread state "every unscoped buffer at the boundary's contents, the generator register at some state,
    nothing owed": its arrays split out of the unscoped buffers at entry and put back at the exit contents; the generator
    register into the region's invariant and out; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state "every unscoped buffer at the boundary's contents, the generator register at some state,
    nothing owed": its arrays split out of the unscoped buffers at entry and put back at the exit contents; the generator
    register into the region's invariant and out; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m) c).loose
  hwaits := Pipeline.hwaits_of_owed_zero _ _ _ _ L lv 1 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec1 c (V4 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V4 m c) (V5 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At the third region's exit each of its arrays holds the last boundary's contents: the inputs as entered, the output
    what the grid points wrote back. -/
theorem exit2 (c : Dev nD) : ∀ w : Fin cfg2.W, (dat2 (V6 m) c).arrAt w cfg2.N = V7 m c (Pipeline.arrRef spec2 w)
  | ⟨0, _⟩ => (((dat2 (V6 m) c).arrAt_in 0 rfl _).trans (A_eq2 (V6 m) c 0)).trans (W7_of_ne m c main_arg1 (by decide)).symm
  | ⟨1, _⟩ => (((dat2 (V6 m) c).arrAt_in 1 rfl _).trans (A_eq2 (V6 m) c 1)).trans (W7_of_ne m c main_v7 (by decide)).symm
  | ⟨2, _⟩ => (((dat2 (V6 m) c).arrAt_in 2 rfl _).trans (A_eq2 (V6 m) c 2)).trans (W7_of_ne m c main_v4 (by decide)).symm
  | ⟨3, _⟩ => (((dat2 (V6 m) c).arrAt_in 3 rfl _).trans (A_eq2 (V6 m) c 3)).trans (W7_of_ne m c main_v4 (by decide)).symm
  | ⟨4, _⟩ => (((dat2 (V6 m) c).arrAt_in 4 rfl _).trans (A_eq2 (V6 m) c 4)).trans (W7_of_ne m c main_arg3 (by decide)).symm
  | ⟨5, _⟩ => (W7_out m c).symm
  | ⟨_ + 6, h⟩ => absurd h (Nat.not_lt.2 (Nat.le_add_left _ _))

/-- The unscoped rest of the third region does not contain its output array, so it reads the same at the entry and at the
    exit contents. -/
theorem rest2_eq (c : Dev nD) :
    (Pipeline.unscopedRest (Ix := Unit) (Name := ℕ) (U := UR sig nD τ) (Lvl := ℕ) spec2 c (V6 m c) : sProp 𝕄)
      = Pipeline.unscopedRest spec2 c (V7 m c) := by
  unfold Pipeline.unscopedRest
  refine bigSep_congr fun b hb => ?_
  have hb8 : b ≠ main_v8 := fun e => (Finset.mem_sdiff.mp hb).2 (e ▸ Finset.mem_image.mpr ⟨5, Finset.mem_univ _, rfl⟩)
  rw [show V7 m c b = V6 m c b from W7_of_ne m c b hb8]

set_option backward.isDefEq.respectTransparency.types false in
/-- Region 2: as the others, except that its six windows sit on five arrays (the shared one held at the two halves of the
    full share), so the arrays are sorted out of, and back into, the unscoped buffers by hand. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (V6 m) c).loose
  hwaits := Pipeline.hwaits_of_owed_zero _ _ _ _ L lv 2 fun _ _ => rfl
  pre c := iprop(StableHlo.held (c : Thread nD τ) (Pipeline.ucRefs τ sig) (W6 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V6 m c)
  hentry c := by
    rw [Pipeline.ownSems0_none]
    have hsplit : (StableHlo.held (c : Thread nD τ) (Pipeline.ucRefs τ sig) (W6 m c) : sProp 𝕄)
        ⊢ iprop((pdats m 2 c).arrays ((pdats m 2 c).arrAt · 0)
            ∗ Pipeline.unscopedRest (Ix := Unit) (Name := ℕ) (U := UR sig nD τ) (Lvl := ℕ) spec2 c (V6 m c)) := by
      rw [← Pipeline.unscopedBufs_held c (W6 m c), Pipeline.unscopedBufs_split₀ cfgs 2 winFacts₀2.arr_unscoped c (V6 m c)]
      exact sep_mono (arrays2_of_bufs (V6 m) c (V6 m c) _ fun _ => rfl) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m 2 c).arrays ((pdats m 2 c).arrAt · cfg2.N)
          ∗ Pipeline.unscopedRest (Ix := Unit) (Name := ℕ) (U := UR sig nD τ) (Lvl := ℕ) spec2 c (V6 m c))
        ⊢ (StableHlo.held (c : Thread nD τ) (Pipeline.ucRefs τ sig) (W7 m c) : sProp 𝕄) := by
      rw [← Pipeline.unscopedBufs_held c (W7 m c), Pipeline.unscopedBufs_split₀ cfgs 2 winFacts₀2.arr_unscoped c (V7 m c), rest2_eq m c]
      exact sep_mono (bufs_of_arrays2 (V6 m) c (V7 m c) _ (exit2 m c)) .rfl
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its items, and the launch -/

/-- The program's seven items in order. -/
abbrev msegs : List (Pipeline.Seg (pcfgs (F := F)) adm (pdats m) () defs₀ 𝒱₀ L lv) :=
  [ .region (reg0 m),
    .host (hseg hostOps1 hostOps1_sub hostOps1_fresh (W1 m)),
    .host (hseg hostOps1_1 hostOps1_1_sub hostOps1_1_fresh (W2 m)),
    .host (hseg hostOps1_2 hostOps1_2_sub hostOps1_2_fresh (W3 m)),
    .region (reg1 m),
    .host (hseg hostOps2 hostOps2_sub hostOps2_fresh (W5 m)),
    .region (reg2 m) ]
/-- The program IS the run of the items. -/
theorem main_run (c : Dev nD) : main (F := F) c = Pipeline.Seg.run (msegs m) := (main_chain c).trans (by chain_rfl)

set_option backward.isDefEq.respectTransparency.types false in
/-- THE RUN: at the compiled mesh, from any memory with zero counters, every weakly fair execution of the program on the
    TensorCores terminates, nothing faulting, and every final memory holds each unscoped buffer of every core at the last
    boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (msegs m)
    (fun c Q => by rw [main_run m c])
    (by simp only [msegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

/-- The result array ends at what the third region's grid points wrote back, and the four argument arrays as launched. -/
theorem run_result : θ_run defs (onTc (τ := τ) (main (F := F))) ⟨m, fun _ => 0, ρ⟩ (fun r => ∀ c : Dev nD,
      r.2.mem ((c.tc : Thread nD τ).loc main_v8) = (dat2 (V6 m) c).arrAt 5 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v8 (by decide))).trans (W7_out m c),
     (h c _ (mem_uc main_arg0 (by decide))).trans (W7_main_arg0 m c),
     (h c _ (mem_uc main_arg1 (by decide))).trans (W7_main_arg1 m c),
     (h c _ (mem_uc main_arg2 (by decide))).trans (W7_main_arg2 m c),
     (h c _ (mem_uc main_arg3 (by decide))).trans (W7_main_arg3 m c)⟩) (run_all m ρ)

/-- The frame: the program runs to the end, faults nowhere, and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => (h c).2) (run_result m ρ)

end Cert.KernelIdeal.Hand

end
-- ==== Proof.Spec.lean ====
/-
  The mathematics both programs compute, written once over plain index types, on the extended reals.

  A batch of 8 graphs on 2048 nodes, features of width 512.  `adj b n m` is a weighted adjacency entry; the EDGE
  indicator `edge` is 1 where the entry is nonzero or on the diagonal (a forced self loop), else 0.  The DEGREE of node
  `n` is the number of its edges, `dinv` the reciprocal square root of the degree (0 where the degree is not positive:
  it never is, every node has its self loop).  `lin` is the linear layer `X · W`.  The layer's output is
  `tanh (D^{-1/2} (A + I) D^{-1/2} (X W) + bias)`: the two programs differ in where the two diagonal scalings are
  applied — `kernelOut` scales the rows of `X W` before the aggregation and the aggregate's rows after it,
  `refOut` scales the adjacency on both sides first.
-/
import Idealize.ShloMosaic.PureOps.Ideal

noncomputable section

namespace Cert.Spec

open Idealize.ShloMosaic

variable (X : Fin 8 → Fin 2048 → Fin 512 → EReal) (adj : Fin 8 → Fin 2048 → Fin 2048 → EReal)
  (W : Fin 512 → Fin 512 → EReal) (bias : Fin 512 → EReal)

/-- The edge indicator with the forced self loop: 1 where the adjacency entry is nonzero or `n = m`, else 0. -/
def edge (b : Fin 8) (n m : Fin 2048) : EReal :=
  max (if adj b n m ≠ 0 then (1 : EReal) else 0) (if n = m then (1 : EReal) else 0)

/-- The degree of node `n` of graph `b`: the number of its edges. -/
def deg (b : Fin 8) (n : Fin 2048) : EReal := ∑ m : Fin 2048, edge adj b n m

/-- The degree's reciprocal square root, 0 where the degree is not positive. -/
def dinv (b : Fin 8) (n : Fin 2048) : EReal :=
  if 0 < deg adj b n then Ideal.rsqrt (deg adj b n) else 0

/-- The linear layer: row `n` of `X b` against column `o` of `W`. -/
def lin (b : Fin 8) (n : Fin 2048) (o : Fin 512) : EReal := ∑ f : Fin 512, X b n f * W f o

/-- The kernel's arrangement: aggregate the rows of `X W` scaled by `dinv`, scale the aggregate's row, add the bias. -/
def kernelOut (b : Fin 8) (n : Fin 2048) (o : Fin 512) : EReal :=
  Ideal.tanh ((∑ m : Fin 2048, edge adj b n m * (lin X W b m o * dinv adj b m)) * dinv adj b n + bias o)

/-- The reference's arrangement: the adjacency scaled on both sides, then the aggregation, then the bias. -/
def refOut (b : Fin 8) (n : Fin 2048) (o : Fin 512) : EReal :=
  Ideal.tanh ((∑ m : Fin 2048, ((dinv adj b n * edge adj b n m) * dinv adj b m) * lin X W b m o) + bias o)

end Cert.Spec

end
-- ==== Proof.RefIsSpec.lean ====
/-
  The reference program, read back at an index, is the specification's `refOut`.

  Stage by stage, bottom-up: the edge indicator (the entry is not zero, or the two node numbers agree as 32-bit words,
  which for numbers below 2048 is equality), the degree (zero plus the sum of the indicators over the row), its
  reciprocal square root where the degree is positive and zero elsewhere, the adjacency scaled on both sides, the
  linear layer, the batched product of the two, the bias, and the hyperbolic tangent.
-/
import proofs.«146164_j70952859730403_2_alg».proof.Proof.Spec
import proofs.«146164_j70952859730403_2_alg».proof.Proof.RefRead

noncomputable section

namespace Cert.ReferenceIdeal.RefValue

open Cert.ReferenceIdeal Cert.ReferenceIdeal.ReadP Idealize.ShloMosaic

/-! ## Facts about single elements -/

/-- A truth value read as an unsigned one-bit integer is the real 1 or 0. -/
theorem uitofp_ofBool (c : Bool) :
    FloatOps.uitofp (F := Ideal) .f32 (BitVec.ofBool c) = if c then (1 : EReal) else 0 := by
  cases c
  · show (((BitVec.ofBool false).toNat : ℝ) : EReal) = _
    simp
  · show (((BitVec.ofBool true).toNat : ℝ) : EReal) = _
    simp

/-- The comparison "not equal to the zero word", converted to a float: 1 where the entry is not zero, else 0. -/
theorem ne_zero_word (a : EReal) :
    FloatOps.uitofp (F := Ideal) .f32
        (FloatOps.cmpf (F := Ideal) (φ := .f32) .une a (FloatOps.ofBits (F := Ideal) .f32 0x00000000#32))
      = if a ≠ 0 then (1 : EReal) else 0 := by
  have h0 : FloatOps.ofBits (F := Ideal) .f32 0x00000000#32 = (0 : EReal) := Ideal.ofBits_zero_f32
  rw [h0]
  show FloatOps.uitofp (F := Ideal) .f32 (BitVec.ofBool (decide (a ≠ 0))) = _
  rw [uitofp_ofBool]
  by_cases h : a = 0 <;> simp [h]

/-- Two node numbers below 2048 agree as 32-bit words exactly when they are equal. -/
theorem diag_word (n m : Fin 2048) :
    FloatOps.uitofp (F := Ideal) .f32
        (IntOp.cmpi .eq (IntOp.addi (BitVec.ofNat 32 n.val) 0#32) (BitVec.ofNat 32 m.val))
      = if n = m then (1 : EReal) else 0 := by
  have h : IntOp.cmpi .eq (IntOp.addi (BitVec.ofNat 32 n.val) 0#32) (BitVec.ofNat 32 m.val)
      = BitVec.ofBool (decide (n = m)) := by
    show BitVec.ofBool (BitVec.ofNat 32 n.val + 0#32 == BitVec.ofNat 32 m.val) = _
    rw [BitVec.add_zero]
    by_cases e : n = m
    · subst e; simp
    · have hne : BitVec.ofNat 32 n.val ≠ BitVec.ofNat 32 m.val := by
        intro h
        have h' := congrArg BitVec.toNat h
        simp only [BitVec.toNat_ofNat] at h'
        have hn := n.isLt
        have hm := m.isLt
        exact e (Fin.ext (by omega))
      rw [beq_eq_false_iff_ne.mpr hne, decide_eq_false e]
  rw [h, uitofp_ofBool]
  by_cases e : n = m <;> simp [e]

/-- The guarded reciprocal square root: where the value is positive its reciprocal square root, else zero. -/
theorem select_pos_rsqrt (d : EReal) :
    Scalar.select (FloatOps.cmpf (F := Ideal) (φ := .f32) .ogt d (FloatOps.ofBits (F := Ideal) .f32 0x00000000#32))
        (FloatOps.hostUnary (F := Ideal) .rsqrt (φ := .f32) d) (FloatOps.ofBits (F := Ideal) .f32 0x00000000#32)
      = if 0 < d then Ideal.rsqrt d else 0 := by
  have h0 : FloatOps.ofBits (F := Ideal) .f32 0x00000000#32 = (0 : EReal) := Ideal.ofBits_zero_f32
  rw [h0, Ideal.hostUnary_rsqrt_def]
  show (if BitVec.ofBool (decide (0 < d)) = 1 then Ideal.rsqrt d else 0) = _
  by_cases h : 0 < d <;> simp [h]

/-! ## The stages -/

/-- The edge indicator. -/
theorem edge_stage (x1 : FVec Ideal S8x2048x2048 .f32) (b : Fin 8) (n m : Fin 2048) :
    val_main_v11 (F := Ideal) x1 (ValueIdx.ix3 b n m)
      = Cert.Spec.edge (fun b n m => x1 (ValueIdx.ix3 b n m)) b n m := by
  have e10 : idx_main_v9 (idx_main_v10 (ValueIdx.ix3 b n m)) = ValueIdx.ix2 n m :=
    funext fun a => by match a with | ⟨0, _⟩ => rfl | ⟨1, _⟩ => rfl
  rw [val_main_v11_apply, val_main_v2_apply, val_main_v1_apply, val_main_v0_apply, val_main_cst_apply,
    val_main_v10_apply, val_main_v9_apply, e10, val_main_v8_apply, val_main_v7_apply, val_main_v6_apply,
    val_main_v3_apply, val_main_v5_apply, val_main_c_apply, val_main_v4_apply]
  show FloatOps.maximumf
      (FloatOps.uitofp (F := Ideal) .f32
        (FloatOps.cmpf (F := Ideal) (φ := .f32) .une (x1 (ValueIdx.ix3 b n m)) (FloatOps.ofBits (F := Ideal) .f32 0x00000000#32)))
      (FloatOps.uitofp (F := Ideal) .f32
        (IntOp.cmpi .eq (IntOp.addi (BitVec.ofNat 32 n.val) 0#32) (BitVec.ofNat 32 m.val))) = _
  rw [ne_zero_word, diag_word]
  rfl

/-- The degree: zero plus the sum of the row's edge indicators. -/
theorem deg_stage (x1 : FVec Ideal S8x2048x2048 .f32) (b : Fin 8) (n : Fin 2048) :
    val_main_v12 (F := Ideal) x1 (ValueIdx.ix2 b n)
      = Cert.Spec.deg (fun b n m => x1 (ValueIdx.ix3 b n m)) b n := by
  have h0 : FloatOps.ofBits (F := Ideal) .f32 0x00000000#32 = (0 : EReal) := Ideal.ofBits_zero_f32
  rw [val_main_v12_apply, val_main_cst_0_apply, h0, zero_add]
  unfold Cert.Spec.deg
  refine Finset.sum_congr rfl fun k _ => ?_
  have e : idx_main_v12 (ValueIdx.ix2 b n) k = ValueIdx.ix3 b n k :=
    funext fun a => by match a with | ⟨0, _⟩ => rfl | ⟨1, _⟩ => rfl | ⟨2, _⟩ => rfl
  rw [e]
  exact edge_stage x1 b n k

/-- The degree's guarded reciprocal square root. -/
theorem dinv_stage (x1 : FVec Ideal S8x2048x2048 .f32) (b : Fin 8) (n : Fin 2048) :
    val_main_v16 (F := Ideal) x1 (ValueIdx.ix2 b n)
      = Cert.Spec.dinv (fun b n m => x1 (ValueIdx.ix3 b n m)) b n := by
  rw [val_main_v16_apply, val_main_v14_apply, val_main_v15_apply, val_main_v13_apply, val_main_cst_1_apply,
    val_main_call0_v1_apply, val_main_call0_v0_apply, val_main_cst_2_apply, deg_stage]
  unfold Cert.Spec.dinv
  exact select_pos_rsqrt _

/-- The adjacency scaled on both sides. -/
theorem scaled_stage (x1 : FVec Ideal S8x2048x2048 .f32) (b : Fin 8) (n m : Fin 2048) :
    val_main_v22 (F := Ideal) x1 (ValueIdx.ix3 b n m)
      = (Cert.Spec.dinv (fun b n m => x1 (ValueIdx.ix3 b n m)) b n
          * Cert.Spec.edge (fun b n m => x1 (ValueIdx.ix3 b n m)) b n m)
        * Cert.Spec.dinv (fun b n m => x1 (ValueIdx.ix3 b n m)) b m := by
  have e18 : idx_main_v17 (idx_main_v18 (ValueIdx.ix3 b n m)) = ValueIdx.ix2 b n :=
    funext fun a => by match a with | ⟨0, _⟩ => rfl | ⟨1, _⟩ => rfl
  have e21 : idx_main_v20 (idx_main_v21 (ValueIdx.ix3 b n m)) = ValueIdx.ix2 b m :=
    funext fun a => by match a with | ⟨0, _⟩ => rfl | ⟨1, _⟩ => rfl
  rw [val_main_v22_apply, val_main_v19_apply, val_main_v18_apply, val_main_v17_apply, e18,
    val_main_v21_apply, val_main_v20_apply, e21, dinv_stage x1 b n, dinv_stage x1 b m, edge_stage x1 b n m,
    Ideal.mulf_def, Ideal.mulf_def]

/-- The linear layer. -/
theorem lin_stage (x0 : FVec Ideal S8x2048x512 .f32) (x2 : FVec Ideal S512x512 .f32)
    (b : Fin 8) (n : Fin 2048) (o : Fin 512) :
    val_main_v23 (F := Ideal) x0 x2 (ValueIdx.ix3 b n o)
      = Cert.Spec.lin (fun b n f => x0 (ValueIdx.ix3 b n f)) (fun f o => x2 (ValueIdx.ix2 f o)) b n o := by
  rw [val_main_v23_apply]
  unfold Cert.Spec.lin
  refine Finset.sum_congr rfl fun k _ => ?_
  have el : lidx_main_v23 (ValueIdx.ix3 b n o) k = ValueIdx.ix3 b n k :=
    funext fun a => by match a with | ⟨0, _⟩ => rfl | ⟨1, _⟩ => rfl | ⟨2, _⟩ => rfl
  have er : ridx_main_v23 (ValueIdx.ix3 b n o) k = ValueIdx.ix2 k o :=
    funext fun a => by match a with | ⟨0, _⟩ => rfl | ⟨1, _⟩ => rfl
  rw [el, er]

/-- The reference's result at an index is the specification's `refOut`. -/
theorem ref_is_spec (x0 : FVec Ideal S8x2048x512 .f32) (x1 : FVec Ideal S8x2048x2048 .f32)
    (x2 : FVec Ideal S512x512 .f32) (x3 : FVec Ideal S512 .f32) (b : Fin 8) (n : Fin 2048) (o : Fin 512) :
    Cert.ReferenceIdeal.ReadP.val_main_v28 (F := Ideal) x0 x1 x2 x3 (ValueIdx.ix3 b n o)
      = Cert.Spec.refOut (fun b n f => x0 (ValueIdx.ix3 b n f)) (fun b n m => x1 (ValueIdx.ix3 b n m))
          (fun f o => x2 (ValueIdx.ix2 f o)) (fun o => x3 (ValueIdx.ix1 o)) b n o := by
  have e26 : idx_main_v25 (idx_main_v26 (ValueIdx.ix3 b n o)) = ValueIdx.ix1 o :=
    funext fun a => by match a with | ⟨0, _⟩ => rfl
  rw [val_main_v28_apply, val_main_v27_apply, val_main_v24_apply, val_main_v26_apply, val_main_v25_apply, e26,
    Ideal.hostUnary_tanh_def, Ideal.addf_def]
  unfold Cert.Spec.refOut
  refine congrArg Ideal.tanh (congrArg (· + x3 (ValueIdx.ix1 o)) ?_)
  refine Finset.sum_congr rfl fun m _ => ?_
  have el : lidx_main_v24 (ValueIdx.ix3 b n o) m = ValueIdx.ix3 b n m :=
    funext fun a => by match a with | ⟨0, _⟩ => rfl | ⟨1, _⟩ => rfl | ⟨2, _⟩ => rfl
  have er : ridx_main_v24 (ValueIdx.ix3 b n o) m = ValueIdx.ix3 b m o :=
    funext fun a => by match a with | ⟨0, _⟩ => rfl | ⟨1, _⟩ => rfl | ⟨2, _⟩ => rfl
  rw [el, er, scaled_stage x1 b n m, lin_stage x0 x2 b m o]

end Cert.ReferenceIdeal.RefValue

end
-- ==== Proof.SpecAlgebra.lean ====
/-
  The two arrangements of the layer agree on the extended reals.

  Both are `tanh (S + bias o)`.  Term by term
  `(edge * (lin * dinv_m)) * dinv_n = ((dinv_n * edge) * dinv_m) * lin` by commutativity and associativity of the
  multiplication of the extended reals, which hold with no finiteness condition.  Moving the row scaling `dinv_n`
  inside the sum is right distributivity, which on the extended reals needs the factor to be a nonnegative real: an edge
  indicator is 0 or 1, so a degree is a finite sum of nonnegative reals, hence a nonnegative real, and its reciprocal
  square root (or 0) is a nonnegative real again.  The linear layer's values may be infinite.
-/
import proofs.«146164_j70952859730403_2_alg».proof.Proof.Spec
import Mathlib.Data.EReal.Operations

noncomputable section

namespace Cert.Spec

open Idealize.ShloMosaic

variable (X : Fin 8 → Fin 2048 → Fin 512 → EReal) (adj : Fin 8 → Fin 2048 → Fin 2048 → EReal)
  (W : Fin 512 → Fin 512 → EReal) (bias : Fin 512 → EReal)

/-- Every edge indicator is 0 or 1. -/
theorem edge_eq_zero_or_one (b : Fin 8) (n m : Fin 2048) : edge adj b n m = 0 ∨ edge adj b n m = 1 := by
  unfold edge
  split_ifs <;> simp

/-- A finite sum of nonnegative reals, embedded in the extended reals, is a nonnegative real. -/
theorem sum_eq_coe_nonneg {ι : Type} (s : Finset ι) (f : ι → EReal)
    (h : ∀ i ∈ s, ∃ r : ℝ, 0 ≤ r ∧ f i = (r : EReal)) :
    ∃ r : ℝ, 0 ≤ r ∧ ∑ i ∈ s, f i = (r : EReal) := by
  classical
  induction s using Finset.induction_on with
  | empty => exact ⟨0, le_refl _, by simp⟩
  | insert a s ha ih =>
    obtain ⟨r₁, h₁, e₁⟩ := h a (Finset.mem_insert_self a s)
    obtain ⟨r₂, h₂, e₂⟩ := ih (fun i hi => h i (Finset.mem_insert_of_mem hi))
    refine ⟨r₁ + r₂, add_nonneg h₁ h₂, ?_⟩
    rw [Finset.sum_insert ha, e₁, e₂, EReal.coe_add]

/-- A degree is a nonnegative real. -/
theorem deg_eq_coe_nonneg (b : Fin 8) (n : Fin 2048) : ∃ r : ℝ, 0 ≤ r ∧ deg adj b n = (r : EReal) := by
  unfold deg
  refine sum_eq_coe_nonneg _ _ (fun m _ => ?_)
  rcases edge_eq_zero_or_one adj b n m with h | h
  · exact ⟨0, le_refl _, by rw [h]; rfl⟩
  · exact ⟨1, zero_le_one, by rw [h]; rfl⟩

/-- The reciprocal square root of a degree (0 where the degree is not positive) is a nonnegative real. -/
theorem dinv_eq_coe_nonneg (b : Fin 8) (n : Fin 2048) : ∃ r : ℝ, 0 ≤ r ∧ dinv adj b n = (r : EReal) := by
  unfold dinv
  obtain ⟨r, hr, e⟩ := deg_eq_coe_nonneg adj b n
  rw [e]
  split_ifs with h
  · have hpos : 0 < r := by exact_mod_cast h
    refine ⟨(Real.sqrt r)⁻¹, inv_nonneg.mpr (Real.sqrt_nonneg r), ?_⟩
    rw [Ideal.rsqrt_coe, if_neg (not_lt.mpr hr), if_neg hpos.ne']
  · exact ⟨0, le_refl _, rfl⟩

/-- Right distributivity over a finite sum, for a nonnegative real factor. -/
theorem sum_mul_coe_nonneg {ι : Type} (s : Finset ι) (f : ι → EReal) (d : ℝ) (hd : 0 ≤ d) :
    (∑ i ∈ s, f i) * (d : EReal) = ∑ i ∈ s, f i * (d : EReal) := by
  classical
  induction s using Finset.induction_on with
  | empty => simp
  | insert a s ha ih =>
    rw [Finset.sum_insert ha, Finset.sum_insert ha,
      EReal.right_distrib_of_nonneg_of_ne_top (by exact_mod_cast hd) (EReal.coe_ne_top d), ih]

/-- The kernel's arrangement and the reference's arrangement of the layer are the same extended real. -/
theorem kernelOut_eq_refOut (X : Fin 8 → Fin 2048 → Fin 512 → EReal) (adj : Fin 8 → Fin 2048 → Fin 2048 → EReal)
    (W : Fin 512 → Fin 512 → EReal) (bias : Fin 512 → EReal) (b : Fin 8) (n : Fin 2048) (o : Fin 512) :
    kernelOut X adj W bias b n o = refOut X adj W bias b n o := by
  unfold kernelOut refOut
  obtain ⟨d, hd, ed⟩ := dinv_eq_coe_nonneg adj b n
  rw [ed, sum_mul_coe_nonneg _ _ d hd]
  congr 2
  refine Finset.sum_congr rfl (fun m _ => ?_)
  ac_rfl

end Cert.Spec

end
-- ==== Proof.PayDegLin.lean ====
/-
  The arithmetic of the degree body and of the linear body, read at one index on the extended reals.

  The degree body stores, at row r of its [1, 512, 1] block, the sum over the 2048 columns m of
  max (1 where the adjacency entry is nonzero, else 0) (1 where the global row equals m, else 0); the global row of
  row r of the block at grid column c is c * 512 + r. The linear body stores, at (r, o), the sum over f of
  x (r, f) * w (f, o): the format changes are the identity on extended reals and the accumulator is zero.
-/
import proofs.«146164_j70952859730403_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx

/-! ## Small facts about words and layouts -/

/-- A vector [a] cast to the column [a, 1] reads, at (i, u), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A one-bit condition widened to 32 bits and converted to a float is 1 where the condition holds, else 0. -/
theorem sitofp_extui_ofBool (c : Bool) :
    (FloatOps.sitofp (F := Ideal) .f32 ((BitVec.ofBool c).setWidth 32) : EReal) = if c then 1 else 0 := by
  cases c
  · show (((BitVec.setWidth 32 (BitVec.ofBool false)).toInt : ℝ) : EReal) = _
    have : (BitVec.setWidth 32 (BitVec.ofBool false)).toInt = 0 := by decide
    rw [this]; simp
  · show (((BitVec.setWidth 32 (BitVec.ofBool true)).toInt : ℝ) : EReal) = _
    have : (BitVec.setWidth 32 (BitVec.ofBool true)).toInt = 1 := by decide
    rw [this]; simp

/-- The 32-bit equation (c * 512 + r) = m holds exactly when it holds of the naturals: nothing wraps for c < 4. -/
theorem diag_word_eq (c r m : ℕ) (hc : c < 4) (hr : r < 512) (hm : m < 2048) :
    (IntOp.addi (Scalar.muli (BitVec.ofNat 32 c) 512#32) (BitVec.ofNat 32 r) == BitVec.ofNat 32 m) = decide (c * 512 + r = m) := by
  have e : IntOp.addi (Scalar.muli (BitVec.ofNat 32 c) 512#32) (BitVec.ofNat 32 r) = BitVec.ofNat 32 (c * 512 + r) := by
    show BitVec.ofNat 32 c * BitVec.ofNat 32 512 + BitVec.ofNat 32 r = _
    rw [← BitVec.ofNat_mul, ← BitVec.ofNat_add]
  rw [e]
  by_cases h : c * 512 + r = m
  · rw [h]; simp
  · have hne : BitVec.ofNat 32 (c * 512 + r) ≠ BitVec.ofNat 32 m := by
      intro hh
      have := congrArg BitVec.toNat hh
      rw [BitVec.toNat_ofNat, BitVec.toNat_ofNat, Nat.mod_eq_of_lt (by omega), Nat.mod_eq_of_lt (by omega)] at this
      exact h this
    simp [h, hne]

/-- An integer comparison at an index compares the elements. -/
theorem cmpi_apply {s : Shape} {w : ℕ} (p : CmpIPredicate) (x y : IVec s w) (i : s.Idx) :
    cmpi p x y i = IntOp.cmpi p (x i) (y i) := rfl
/-- An integer sum at an index adds the elements. -/
theorem addi_apply {s : Shape} {w : ℕ} (x y : IVec s w) (i : s.Idx) : addi x y i = IntOp.addi (x i) (y i) := rfl

/-- "The entry is not zero", as a float: 1 where it holds, else 0. -/
theorem adj_ind (x : EReal) :
    (FloatOps.sitofp (F := Ideal) .f32
      ((FloatOps.cmpf (F := Ideal) (φ := .f32) .one x (Scalar.ofBits (F := Ideal) .f32 0x00000000#32)).setWidth 32) : EReal)
      = if x ≠ 0 then 1 else 0 := by
  rw [Ideal.cmpf_def]
  show (FloatOps.sitofp (F := Ideal) .f32 ((BitVec.ofBool (decide (x ≠ Ideal.ofBits .f32 0x00000000#32))).setWidth 32) : EReal) = _
  rw [Ideal.ofBits_zero_f32, sitofp_extui_ofBool]
  by_cases h : x = 0 <;> simp [h]

/-- "The global row c * 512 + r is the column m", as a float: 1 where it holds, else 0. -/
theorem diag_ind (c r m : ℕ) (hc : c < 4) (hr : r < 512) (hm : m < 2048) :
    (FloatOps.sitofp (F := Ideal) .f32
      ((IntOp.cmpi .eq (IntOp.addi (Scalar.muli (BitVec.ofNat 32 c) 512#32) (BitVec.ofNat 32 r)) (BitVec.ofNat 32 m)).setWidth 32) : EReal)
      = if c * 512 + r = m then 1 else 0 := by
  show (FloatOps.sitofp (F := Ideal) .f32 ((BitVec.ofBool
    (IntOp.addi (Scalar.muli (BitVec.ofNat 32 c) 512#32) (BitVec.ofNat 32 r) == BitVec.ofNat 32 m)).setWidth 32) : EReal) = _
  rw [diag_word_eq c r m hc hr hm, sitofp_extui_ofBool]
  by_cases h : c * 512 + r = m <;> simp [h]

/-- The sum along the columns of a [512, 2048] vector, at row r. -/
theorem rowsum_apply (src : FVec Ideal S512x2048 .f32) (hφ : FKind.Formats .f32)
    (hacc : (0x00000000#32 : BitVec 32) = FKind.add.neutral .f32 hφ) (r : Fin 512) :
    multiReduction (F := Ideal) .add [1] S512 src 0x00000000#32 reduces_S512x2048_S512 hφ hacc (ix1 r)
      = ∑ m : Fin 2048, src (ix2 r m) := by
  refine (Ideal.multiReduction_add_single src 0x00000000#32 reduces_S512x2048_S512 hφ hacc (ix1 r)).trans ?_
  show ∑ k : Fin 2048, src (reduces_S512x2048_S512.lift (ix1 r) k) = _
  refine Finset.sum_congr rfl fun m _ => congrArg src ?_
  funext a
  match a with
  | ⟨0, _⟩ => exact Fin.ext rfl
  | ⟨1, _⟩ => exact Fin.ext rfl

/-! ## The degree body -/

theorem k0_pay1_apply (i : grid0.Coords) (hi : (i 1).val < 4) (v5 : Vec Ideal S1x512x2048 .f32) (r : Fin 512) :
    Gen.k0_pay1 (F := Ideal) i v5 (ix3 (0 : Fin 1) r (0 : Fin 1))
      = ∑ m : Fin 2048, max (if v5 (ix3 (0 : Fin 1) r m) ≠ 0 then (1 : EReal) else 0)
          (if (i 1).val * 512 + r.val = m.val then (1 : EReal) else 0) := by
  unfold Gen.k0_pay1
  dsimp only
  refine (shapeCast_ab_1ab_apply _ shapeCasts_S512x1_S1x512x1 (0 : Fin 1) r (0 : Fin 1)).trans ?_
  refine (shapeCast_a_a1_apply _ shapeCasts_S512_S512x1 r (0 : Fin 1)).trans ?_
  refine (rowsum_apply _ _ _ r).trans ?_
  refine Finset.sum_congr rfl fun m _ => ?_
  rw [maximumf_apply, sitofp_apply, sitofp_apply, extui_apply, extui_apply, cmpf_apply, cmpi_apply, addi_apply,
    broadcast_apply, broadcast_apply, shapeCast_1ab_ab_apply, iota_single_apply, iota_single_apply]
  exact congrArg₂ max (adj_ind _) (diag_ind (i 1).val r.val m.val hi r.isLt m.isLt)

/-! ## The linear body -/

/-- The matmul's left operand index at output index j and contraction index q: row j 0 … -/
theorem lhs_row (j : S1024x512.Idx) (q : dot_S1024x512_S512x512_S1024x512_1_0_0_1_n_n.contr.Idx) :
    (dot_S1024x512_S512x512_S1024x512_1_0_0_1_n_n.lhsIdx j q 0).val = (j 0).val := by
  unfold DotDims.lhsIdx
  rw [dif_neg (show ¬(0 : Fin S1024x512.rank) ∈ dot_S1024x512_S512x512_S1024x512_1_0_0_1_n_n.lhsBatch by decide),
    dif_pos (show (0 : Fin S1024x512.rank) ∈ dot_S1024x512_S512x512_S1024x512_1_0_0_1_n_n.lhsNonContracting by decide)]
  rfl
/-- … column q. -/
theorem lhs_contr (j : S1024x512.Idx) (q : dot_S1024x512_S512x512_S1024x512_1_0_0_1_n_n.contr.Idx) :
    (dot_S1024x512_S512x512_S1024x512_1_0_0_1_n_n.lhsIdx j q 1).val = (q ⟨0, by decide⟩).val :=
  dot_S1024x512_S512x512_S1024x512_1_0_0_1_n_n.lhsIdx_val_of_single rfl j q
/-- The right operand index: row q … -/
theorem rhs_contr (j : S1024x512.Idx) (q : dot_S1024x512_S512x512_S1024x512_1_0_0_1_n_n.contr.Idx) :
    (dot_S1024x512_S512x512_S1024x512_1_0_0_1_n_n.rhsIdx j q 0).val = (q ⟨0, by decide⟩).val :=
  dot_S1024x512_S512x512_S1024x512_1_0_0_1_n_n.rhsIdx_val_of_single rfl j q
/-- … column j 1. -/
theorem rhs_col (j : S1024x512.Idx) (q : dot_S1024x512_S512x512_S1024x512_1_0_0_1_n_n.contr.Idx) :
    (dot_S1024x512_S512x512_S1024x512_1_0_0_1_n_n.rhsIdx j q 1).val = (j 1).val := by
  unfold DotDims.rhsIdx
  rw [dif_neg (show ¬(1 : Fin S512x512.rank) ∈ dot_S1024x512_S512x512_S1024x512_1_0_0_1_n_n.rhsBatch by decide),
    dif_pos (show (1 : Fin S512x512.rank) ∈ dot_S1024x512_S512x512_S1024x512_1_0_0_1_n_n.rhsNonContracting by decide)]
  rfl

theorem k1_pay1_apply (v0 : Vec Ideal S1024x512 .f32) (v3 : Vec Ideal S512x512 .f32) (r : Fin 1024) (o : Fin 512) :
    Gen.k1_pay1 (F := Ideal) v0 v3 (ix2 r o) = ∑ f : Fin 512, v0 (ix2 r f) * v3 (ix2 f o) := by
  unfold Gen.k1_pay1
  simp only [matmul]
  rw [Ideal.matmul_constant_zero_apply,
    ← Equiv.sum_comp (contrEquiv1 dot_S1024x512_S512x512_S1024x512_1_0_0_1_n_n 512 rfl rfl).symm]
  refine Finset.sum_congr rfl fun k _ => ?_
  have hk := contrEquiv1_symm_val dot_S1024x512_S512x512_S1024x512_1_0_0_1_n_n 512 rfl rfl k
  have el : dot_S1024x512_S512x512_S1024x512_1_0_0_1_n_n.lhsIdx (ix2 r o)
      ((contrEquiv1 dot_S1024x512_S512x512_S1024x512_1_0_0_1_n_n 512 rfl rfl).symm k) = ix2 r k :=
    funext fun a => Fin.ext (by
      match a with
      | ⟨0, _⟩ => exact lhs_row _ _
      | ⟨1, _⟩ => exact (lhs_contr _ _).trans hk)
  have er : dot_S1024x512_S512x512_S1024x512_1_0_0_1_n_n.rhsIdx (ix2 r o)
      ((contrEquiv1 dot_S1024x512_S512x512_S1024x512_1_0_0_1_n_n 512 rfl rfl).symm k) = ix2 k o :=
    funext fun a => Fin.ext (by
      match a with
      | ⟨0, _⟩ => exact (rhs_contr _ _).trans hk
      | ⟨1, _⟩ => exact rhs_col _ _)
  rw [el, er, truncf_apply, truncf_apply, shapeCast_self]

end Cert.KernelIdeal.Pay

end
-- ==== Proof.FinalDegLin.lean ====
/-
  From blocks to whole arrays, for the first two kernel regions, on the extended reals.

  Region 0 writes, at every grid point (g, c), rows c * 512 … c * 512 + 511 of graph g of the degree array, each the row
  sum of the edge indicator of the adjacency block it read; the 32 blocks tile the [8, 2048, 1] array, so the array ends
  holding the degree of every node. Region 1 writes, at grid point p, rows p * 1024 … p * 1024 + 1023 of the product of
  the [16384, 512] input with the [512, 512] weight; the 16 blocks tile the result.
-/
import proofs.«146164_j70952859730403_2_alg».proof.Proof.FrameI.Region0
import proofs.«146164_j70952859730403_2_alg».proof.Proof.FrameI.Region1
import proofs.«146164_j70952859730403_2_alg».proof.Proof.PayDegLin
import proofs.«146164_j70952859730403_2_alg».proof.Proof.Spec
import Idealize.ShloMosaic.Lib.Pipeline.Value
import Idealize.ShloMosaic.Lib.ValueIdx

noncomputable section

namespace Cert.KernelIdeal.Final01

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-! ## Region 0: the degrees -/

/-- The adjacency array the region finds, by coordinates. -/
abbrev adjOf (c : Dev nD) : Fin 8 → Fin 2048 → Fin 2048 → EReal :=
  fun b n m => (V c main_arg1 : S8x2048x2048.Idx → EReal) (ix3 b n m)

/-- The degree array: at (b, n, 0) the degree of node n of graph b. -/
abbrev Gdeg (c : Dev nD) : S8x2048x1.Idx → EReal :=
  fun k => Cert.Spec.deg (adjOf V c) ⟨(k 0).val, (k 0).isLt⟩ ⟨(k 1).val, (k 1).isLt⟩

/-- One row of one block: where the block's row r is row n of graph b of the adjacency array and n is the global row of
    r at the grid point, the body's sum is the degree of n. -/
theorem deg_point (adj : Fin 8 → Fin 2048 → Fin 2048 → EReal) (i : grid0.Coords)
    (x : Vec Ideal S1x512x2048 .f32) (b : Fin 8) (r : Fin 512) (n : Fin 2048)
    (hn : n.val = (i 1).val * 512 + r.val)
    (hx : ∀ m : Fin 2048, x (ix3 (0 : Fin 1) r m) = adj b n m) :
    Gen.k0_pay1 (F := Ideal) i x (ix3 (0 : Fin 1) r (0 : Fin 1)) = Cert.Spec.deg adj b n := by
  rw [Pay.k0_pay1_apply i (i 1).isLt x r]
  unfold Cert.Spec.deg Cert.Spec.edge
  refine Finset.sum_congr rfl fun m _ => ?_
  rw [hx m]
  have e : ((i 1).val * 512 + r.val = m.val) ↔ n = m := by rw [← hn]; exact Fin.ext_iff.symm
  rw [if_congr e rfl rfl]

/-- The printed index maps, decided over the grid: the input block moves with the output block, whose block index is the
    grid point's coordinates. -/
theorem idx_facts0 : ∀ t : Fin cfg0.N, win0_0.index t (0 : Fin 3) = win0_1.index t (0 : Fin 3)
    ∧ win0_0.index t (1 : Fin 3) = win0_1.index t (1 : Fin 3)
    ∧ win0_0.index t (2 : Fin 3) = 0
    ∧ win0_1.index t (1 : Fin 3) = (grid0.coords t 1).val
    ∧ win0_1.index t (0 : Fin 3) ≤ 7 ∧ win0_1.index t (1 : Fin 3) ≤ 3 ∧ win0_1.index t (2 : Fin 3) = 0 :=
  (by decide +kernel : ∀ t : Fin grid0.N, _)

/-- Every block of the array is some point's. -/
theorem idx_onto0 : ∀ (q0 : Fin 8) (q1 : Fin 4), ∃ t : Fin cfg0.N, win0_1.index t = ![q0.val, q1.val, 0] :=
  (by decide +kernel : ∀ (q0 : Fin 8) (q1 : Fin 4), ∃ t : Fin grid0.N, win0_1.index t = ![q0.val, q1.val, 0])

/-- What point t writes back is block t of the degree array. -/
theorem flushed0_eq (c : Dev nD) (t : Fin cfg0.N) :
    (Hand.dat0 V c).flushed 1 t = ((cfg0.win 1).blk t).view.read (Elt Ideal) (Gdeg V c) := by
  show (cfg0.win 1).cut (grid0.coords t) ((Hand.dat0 V c).after 1 t) = _
  rw [Hand.after0_1]
  unfold Hand.out0_1
  rw [View.canon_unit_zero hz3]
  simp only [View.ld_unit_zero (S := S1x512x2048) hz3]
  obtain ⟨e0, e1, e2, e3, e4, e5, e6⟩ := idx_facts0 t
  funext y
  have hy0 : (y 0).val < 1 := (y 0).isLt
  have hy1 : (y 1).val < 512 := (y 1).isLt
  have hy2 : (y 2).val < 1 := (y 2).isLt
  obtain ⟨r, hr⟩ : ∃ r : Fin 512, r.val = (y 1).val := ⟨⟨(y 1).val, hy1⟩, rfl⟩
  have hy : y = ix3 (0 : Fin 1) r (0 : Fin 1) := funext fun a => Fin.ext (by
    match a with
    | ⟨0, _⟩ => show (y 0).val = 0; omega
    | ⟨1, _⟩ => show (y 1).val = r.val; omega
    | ⟨2, _⟩ => show (y 2).val = 0; omega)
  subst hy
  show Gen.k0_pay1 (grid0.coords t) (Hand.iblk0 V c 0 t) (ix3 (0 : Fin 1) r (0 : Fin 1))
    = Gdeg V c (((cfg0.win 1).blk t).view.emb (ix3 (0 : Fin 1) r (0 : Fin 1)))
  refine deg_point (adjOf V c) (grid0.coords t) (Hand.iblk0 V c 0 t) _ r _ ?_ fun m => ?_
  · show win0_1.index t (1 : Fin 3) * 512 + 1 * r.val = (grid0.coords t 1).val * 512 + r.val
    omega
  · show (V c main_arg1 : S8x2048x2048.Idx → EReal) (((cfg0.win 0).blk t).view.emb (ix3 (0 : Fin 1) r m)) = _
    refine congrArg _ (funext fun a => Fin.ext ?_)
    match a with
    | ⟨0, _⟩ => show win0_0.index t (0 : Fin 3) * 1 + 1 * 0 = win0_1.index t (0 : Fin 3) * 1 + 1 * 0; omega
    | ⟨1, _⟩ => show win0_0.index t (1 : Fin 3) * 512 + 1 * r.val = win0_1.index t (1 : Fin 3) * 512 + 1 * r.val; omega
    | ⟨2, _⟩ => show win0_0.index t (2 : Fin 3) * 2048 + 1 * m.val = m.val; omega

/-- An index of the degree array is in point t's block iff each coordinate is in the block's range on its axis. -/
theorem mem_blk0 (t : Fin cfg0.N) (i : S8x2048x1.Idx) :
    i ∈ ((cfg0.win 1).blk t).view.set ↔ ∀ a : Fin 3, win0_1.index t a * S1x512x1.size a ≤ (i a).val
      ∧ (i a).val < win0_1.index t a * S1x512x1.size a + S1x512x1.size a := by
  show i ∈ ((View.whole main_v0).slice (win0_1.rect t)).set ↔ _
  rw [View.set_slice_whole, Rect.mem_set_unit]
  exact Iff.rfl

/-- Row n of graph b is in the block of the point whose block index is (b, n / 512, 0). -/
theorem cover0 (i : S8x2048x1.Idx) :
    ∃ t : Fin cfg0.N, (cfg0.win 1).flush t = true ∧ i ∈ ((cfg0.win 1).blk t).view.set := by
  have hi0 : (i 0).val < 8 := (i 0).isLt
  have hi1 : (i 1).val < 2048 := (i 1).isLt
  have hi2 : (i 2).val < 1 := (i 2).isLt
  obtain ⟨t, ht⟩ := idx_onto0 ⟨(i 0).val, hi0⟩ ⟨(i 1).val / 512, by omega⟩
  have q0 : win0_1.index t (0 : Fin 3) = (i 0).val := congrFun ht 0
  have q1 : win0_1.index t (1 : Fin 3) = (i 1).val / 512 := congrFun ht 1
  have q2 : win0_1.index t (2 : Fin 3) = 0 := congrFun ht 2
  refine ⟨t, flush0_1 t, ?_⟩
  rw [mem_blk0]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 512 ≤ (i 1).val ∧ (i 1).val < win0_1.index t (1 : Fin 3) * 512 + 512; omega
  | ⟨2, _⟩ => show win0_1.index t (2 : Fin 3) * 1 ≤ (i 2).val ∧ (i 2).val < win0_1.index t (2 : Fin 3) * 1 + 1; omega

/-- The degree array after region 0: the degree of every node, from the adjacency array as the region finds it. -/
theorem final0 (c : Dev nD) (b : Fin 8) (n : Fin 2048) :
    (Hand.dat0 (F := Ideal) V c).arrAt 1 cfg0.N (ix3 b n (0 : Fin 1))
      = Cert.Spec.deg (fun b n m => V c main_arg1 (ix3 b n m)) b n := by
  rw [(Hand.dat0 V c).arrAt_eq_of_cover 1 (Gdeg V c) (fun t _ => flushed0_eq V c t) cover0]

/-! ## Region 1: the linear layer -/

/-- The [16384, 512] input the region finds, by coordinates. -/
abbrev xOf (c : Dev nD) : Fin 16384 → Fin 512 → EReal := fun r f => V c main_v5 (ix2 r f)
/-- The weight the region finds, by coordinates. -/
abbrev wOf (c : Dev nD) : Fin 512 → Fin 512 → EReal := fun f o => V c main_arg2 (ix2 f o)

/-- The product array: at (r, o), row r of the input against column o of the weight, both as the region finds them. -/
abbrev Glin (c : Dev nD) : S16384x512.Idx → EReal :=
  fun k => ∑ f : Fin 512, xOf V c ⟨(k 0).val, (k 0).isLt⟩ f * wOf V c f ⟨(k 1).val, (k 1).isLt⟩

/-- One element of one block: where row r of the input block is row R of the input array and column o of the weight
    block is column O of the weight array, the body's sum is the product's element (R, O). -/
theorem lin_point (X : Fin 16384 → Fin 512 → EReal) (W : Fin 512 → Fin 512 → EReal)
    (x0 : Vec Ideal S1024x512 .f32) (x1 : Vec Ideal S512x512 .f32) (r : Fin 1024) (o : Fin 512) (R : Fin 16384) (O : Fin 512)
    (hx0 : ∀ f : Fin 512, x0 (ix2 r f) = X R f) (hx1 : ∀ f : Fin 512, x1 (ix2 f o) = W f O) :
    Gen.k1_pay1 (F := Ideal) x0 x1 (ix2 r o) = ∑ f : Fin 512, X R f * W f O := by
  rw [Pay.k1_pay1_apply]
  exact Finset.sum_congr rfl fun f _ => by rw [hx0 f, hx1 f]

/-- The printed index maps, decided over the grid: the input's row block moves with the output's, the weight's block is
    the whole weight. -/
theorem idx_facts1 : ∀ t : Fin cfg1.N, win1_0.index t (0 : Fin 2) = win1_2.index t (0 : Fin 2)
    ∧ win1_0.index t (1 : Fin 2) = 0
    ∧ win1_1.index t (0 : Fin 2) = 0 ∧ win1_1.index t (1 : Fin 2) = 0
    ∧ win1_2.index t (0 : Fin 2) ≤ 15 ∧ win1_2.index t (1 : Fin 2) = 0 :=
  (by decide +kernel : ∀ t : Fin grid1.N, _)

/-- Every row block of the array is some point's. -/
theorem idx_onto1 : ∀ q0 : Fin 16, ∃ t : Fin cfg1.N, win1_2.index t = ![q0.val, 0] :=
  (by decide +kernel : ∀ q0 : Fin 16, ∃ t : Fin grid1.N, win1_2.index t = ![q0.val, 0])

/-- What point t writes back is block t of the product array. -/
theorem flushed1_eq (c : Dev nD) (t : Fin cfg1.N) :
    (Hand.dat1 V c).flushed 2 t = ((cfg1.win 2).blk t).view.read (Elt Ideal) (Glin V c) := by
  show (cfg1.win 2).cut (grid1.coords t) ((Hand.dat1 V c).after 2 t) = _
  rw [Hand.after1_2]
  unfold Hand.out1_2
  rw [View.canon_unit_zero hz2]
  simp only [View.ld_unit_zero (S := S1024x512) hz2, View.ld_unit_zero (S := S512x512) hz2]
  obtain ⟨e0, e1, e2, e3, e4, e5⟩ := idx_facts1 t
  funext y
  have hy0 : (y 0).val < 1024 := (y 0).isLt
  have hy1 : (y 1).val < 512 := (y 1).isLt
  obtain ⟨r, hr⟩ : ∃ r : Fin 1024, r.val = (y 0).val := ⟨⟨(y 0).val, hy0⟩, rfl⟩
  obtain ⟨o, ho⟩ : ∃ o : Fin 512, o.val = (y 1).val := ⟨⟨(y 1).val, hy1⟩, rfl⟩
  have hy : y = ix2 r o := funext fun a => Fin.ext (by
    match a with
    | ⟨0, _⟩ => show (y 0).val = r.val; omega
    | ⟨1, _⟩ => show (y 1).val = o.val; omega)
  subst hy
  show Gen.k1_pay1 (Hand.iblk1 V c 0 t) (Hand.iblk1 V c 1 t) (ix2 r o)
    = Glin V c (((cfg1.win 2).blk t).view.emb (ix2 r o))
  refine lin_point (xOf V c) (wOf V c) (Hand.iblk1 V c 0 t) (Hand.iblk1 V c 1 t) r o _ _ (fun f => ?_) (fun f => ?_)
  · show (V c main_v5 : S16384x512.Idx → EReal) (((cfg1.win 0).blk t).view.emb (ix2 r f)) = _
    refine congrArg _ (funext fun a => Fin.ext ?_)
    match a with
    | ⟨0, _⟩ => show win1_0.index t (0 : Fin 2) * 1024 + 1 * r.val = win1_2.index t (0 : Fin 2) * 1024 + 1 * r.val; omega
    | ⟨1, _⟩ => show win1_0.index t (1 : Fin 2) * 512 + 1 * f.val = f.val; omega
  · show (V c main_arg2 : S512x512.Idx → EReal) (((cfg1.win 1).blk t).view.emb (ix2 f o)) = _
    refine congrArg _ (funext fun a => Fin.ext ?_)
    match a with
    | ⟨0, _⟩ => show win1_1.index t (0 : Fin 2) * 512 + 1 * f.val = f.val; omega
    | ⟨1, _⟩ => show win1_1.index t (1 : Fin 2) * 512 + 1 * o.val = win1_2.index t (1 : Fin 2) * 512 + 1 * o.val; omega

/-- An index of the product array is in point t's block iff each coordinate is in the block's range on its axis. -/
theorem mem_blk1 (t : Fin cfg1.N) (i : S16384x512.Idx) :
    i ∈ ((cfg1.win 2).blk t).view.set ↔ ∀ a : Fin 2, win1_2.index t a * S1024x512.size a ≤ (i a).val
      ∧ (i a).val < win1_2.index t a * S1024x512.size a + S1024x512.size a := by
  show i ∈ ((View.whole main_v6).slice (win1_2.rect t)).set ↔ _
  rw [View.set_slice_whole, Rect.mem_set_unit]
  exact Iff.rfl

/-- Row r is in the block of the point whose block index is (r / 1024, 0). -/
theorem cover1 (i : S16384x512.Idx) :
    ∃ t : Fin cfg1.N, (cfg1.win 2).flush t = true ∧ i ∈ ((cfg1.win 2).blk t).view.set := by
  have hi0 : (i 0).val < 16384 := (i 0).isLt
  have hi1 : (i 1).val < 512 := (i 1).isLt
  obtain ⟨t, ht⟩ := idx_onto1 ⟨(i 0).val / 1024, by omega⟩
  have q0 : win1_2.index t (0 : Fin 2) = (i 0).val / 1024 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 1024 ≤ (i 0).val ∧ (i 0).val < win1_2.index t (0 : Fin 2) * 1024 + 1024; omega
  | ⟨1, _⟩ => show win1_2.index t (1 : Fin 2) * 512 ≤ (i 1).val ∧ (i 1).val < win1_2.index t (1 : Fin 2) * 512 + 512; omega

/-- The product array after region 1: every row of the input against every column of the weight, both as the region
    finds them. -/
theorem final1 (c : Dev nD) (r : Fin 16384) (o : Fin 512) :
    (Hand.dat1 (F := Ideal) V c).arrAt 2 cfg1.N (ix2 r o)
      = ∑ f : Fin 512, xOf V c r f * wOf V c f o := by
  rw [(Hand.dat1 V c).arrAt_eq_of_cover 2 (Glin V c) (fun t _ => flushed1_eq V c t) cover1]

end Cert.KernelIdeal.Final01

end
-- ==== Proof.PayAgg.lean ====
/-
  The aggregation body's arithmetic read at one element, at the ideal values.

  One grid point (graph, row tile) holds a [512, 2048] tile of adjacency rows, the 2048 rows of the linear layer's
  output `h` with their scalings `dinv`, the tile's own 512 scalings and the bias.  The body rebuilds the edge
  indicator of the tile (1 where the adjacency entry is nonzero or on the diagonal, read through the tile's row
  offset), multiplies it into `h * dinv` over all 2048 nodes, scales the row and adds the bias under `tanh`.
  Read at row `r` and column `o` of the tile, with every format change the identity and every operation exact,
  that is one sum over the 2048 nodes.
-/
import proofs.«146164_j70952859730403_2_alg».proof.Proof.Gen.KernelIdeal.Skeleton
import Idealize.ShloMosaic.Lib.ValueIdx
import Idealize.ShloMosaic.Lib.ValueLayout
import Idealize.ShloMosaic.PureOps.Ideal.Laws

noncomputable section

namespace Cert.KernelIdeal.PayAgg

open Cert.KernelIdeal Cert.KernelIdeal.Gen Idealize.ShloMosaic Idealize.ShloMosaic.ValueIdx

/-! ## Layout: the column broadcast -/

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Words: a one-bit condition as a float, the nonzero test, the diagonal test -/

/-- A one-bit word widened to 32 bits and converted to a float is 1 or 0. -/
theorem sitofp_bit (c : BitVec 1) :
    FloatOps.sitofp (F := Ideal) .f32 (c.setWidth 32) = if c = 1#1 then (1 : EReal) else 0 := by
  rcases BitVec.eq_zero_or_eq_one c with h | h <;> subst h
  · show (((BitVec.setWidth 32 0#1).toInt : ℝ) : EReal) = _
    rw [if_neg (by decide), show (BitVec.setWidth 32 0#1).toInt = 0 from by decide]; simp
  · show (((BitVec.setWidth 32 1#1).toInt : ℝ) : EReal) = _
    rw [if_pos rfl, show (BitVec.setWidth 32 1#1).toInt = 1 from by decide]; simp

/-- The bit of a decided proposition is `1` exactly when the proposition holds. -/
theorem ofBool_decide_eq_one (p : Prop) [Decidable p] : BitVec.ofBool (decide p) = 1#1 ↔ p := by
  by_cases hp : p
  · simp [hp]
  · simp [hp]

/-- The row offset of a tile plus a row of the tile, computed on 32-bit words, meets a column's word exactly when the
    natural numbers agree: tile `t < 4` of 512 rows, nothing wraps. -/
theorem diag_word (t r m : ℕ) (ht : t < 4) (hr : r < 512) (hm : m < 2048) :
    (BitVec.ofNat 32 t * 512#32 + BitVec.ofNat 32 (0 * 512 + r) = BitVec.ofNat 32 (0 * 2048 + m)) ↔ t * 512 + r = m := by
  rw [← BitVec.toNat_inj]
  simp only [BitVec.toNat_add, BitVec.toNat_mul, BitVec.toNat_ofNat]
  omega

/-! ## The edge tile at (row, node) -/

/-- The nonzero test of a tile as a float: 1 where the entry is not zero, else 0. -/
theorem nz_apply (x : FVec Ideal S512x2048 .f32) (h : 1 < 32) (j : S512x2048.Idx) :
    (sitofp .f32 (extui 32 (cmpf .one x (broadcast S512x2048 (FloatOps.ofBits .f32 0x00000000#32))) h) :
        FVec Ideal S512x2048 .f32) j = if x j ≠ 0 then (1 : EReal) else 0 := by
  show FloatOps.sitofp (F := Ideal) .f32 ((Ideal.cmp .one (x j) (Ideal.ofBits .f32 0x00000000#32)).setWidth 32) = _
  rw [sitofp_bit, Ideal.ofBits_zero_f32]
  exact if_congr (ofBool_decide_eq_one (x j ≠ 0)) rfl rfl

/-- The diagonal test of tile `t` as a float: 1 where the tile's row `r`, offset by the tile's first row, is the
    column `m`, else 0. -/
theorem diag_apply (t : ℕ) (ht : t < 4) (h0 : S512x2048.Iotas .tc 32 [0]) (h1 : S512x2048.Iotas .tc 32 [1]) (h : 1 < 32)
    (r : Fin 512) (m : Fin 2048) :
    (sitofp .f32 (extui 32 (cmpi .eq (addi (broadcast S512x2048 (Scalar.muli (BitVec.ofNat 32 t) 512#32))
          (iota .tc S512x2048 32 [0] h0)) (iota .tc S512x2048 32 [1] h1)) h) : FVec Ideal S512x2048 .f32) (ix2 r m)
      = if t * 512 + r.val = m.val then (1 : EReal) else 0 := by
  show FloatOps.sitofp (F := Ideal) .f32 ((BitVec.ofBool (BitVec.ofNat 32 t * 512#32 + BitVec.ofNat 32 (0 * 512 + r.val)
      == BitVec.ofNat 32 (0 * 2048 + m.val))).setWidth 32) = _
  rw [sitofp_bit]
  by_cases hd : t * 512 + r.val = m.val
  · have e := (diag_word t r.val m.val ht r.isLt m.isLt).mpr hd
    rw [e, if_pos hd]; exact if_pos (by simp)
  · have e : ¬(BitVec.ofNat 32 t * 512#32 + BitVec.ofNat 32 (0 * 512 + r.val) = BitVec.ofNat 32 (0 * 2048 + m.val)) :=
      fun h' => hd ((diag_word t r.val m.val ht r.isLt m.isLt).mp h')
    rw [if_neg hd, beq_eq_false_iff_ne.mpr e]; exact if_neg (by decide)

/-! ## The scaled rows of the linear layer at (node, column) -/

/-- `h * dinv` over all nodes, read at `(m, o)`. -/
theorem scaled_apply (v15 : Vec Ideal S1x2048x1 .f32) (v17 : Vec Ideal S1x2048x512 .f32)
    (h1 : S1x2048x512.ShapeCasts S2048x512) (h2 : S1x2048x1.ShapeCasts S2048x1) (h3 : S2048x1.Broadcasts S2048x512)
    (m : Fin 2048) (o : Fin 512) :
    (mulf (shapeCast S2048x512 v17 h1) (broadcastTo S2048x512 (shapeCast S2048x1 v15 h2) h3) : FVec Ideal S2048x512 .f32) (ix2 m o)
      = v17 (ix3 (0 : Fin 1) m o) * v15 (ix3 (0 : Fin 1) m (0 : Fin 1)) := by
  rw [mulf_apply, shapeCast_1ab_ab_apply, broadcastTo_a1_ab_apply, shapeCast_1ab_ab_apply]

/-! ## The contraction over the 2048 nodes -/

theorem lhs_0 (j : S512x512.Idx) (q : dot_S512x2048_S2048x512_S512x512_1_0_0_1_n_n.contr.Idx) :
    (dot_S512x2048_S2048x512_S512x512_1_0_0_1_n_n.lhsIdx j q 0).val = (j 0).val := by
  unfold DotDims.lhsIdx
  rw [dif_neg (show ¬(0 : Fin S512x2048.rank) ∈ dot_S512x2048_S2048x512_S512x512_1_0_0_1_n_n.lhsBatch by decide), dif_pos (show (0 : Fin S512x2048.rank) ∈ dot_S512x2048_S2048x512_S512x512_1_0_0_1_n_n.lhsNonContracting by decide)]
  rfl
theorem lhs_1 (j : S512x512.Idx) (q : dot_S512x2048_S2048x512_S512x512_1_0_0_1_n_n.contr.Idx) :
    (dot_S512x2048_S2048x512_S512x512_1_0_0_1_n_n.lhsIdx j q 1).val = (q ⟨0, by decide⟩).val :=
  dot_S512x2048_S2048x512_S512x512_1_0_0_1_n_n.lhsIdx_val_of_single rfl j q
theorem rhs_0 (j : S512x512.Idx) (q : dot_S512x2048_S2048x512_S512x512_1_0_0_1_n_n.contr.Idx) :
    (dot_S512x2048_S2048x512_S512x512_1_0_0_1_n_n.rhsIdx j q 0).val = (q ⟨0, by decide⟩).val :=
  dot_S512x2048_S2048x512_S512x512_1_0_0_1_n_n.rhsIdx_val_of_single rfl j q
theorem rhs_1 (j : S512x512.Idx) (q : dot_S512x2048_S2048x512_S512x512_1_0_0_1_n_n.contr.Idx) :
    (dot_S512x2048_S2048x512_S512x512_1_0_0_1_n_n.rhsIdx j q 1).val = (j 1).val := by
  unfold DotDims.rhsIdx
  rw [dif_neg (show ¬(1 : Fin S2048x512.rank) ∈ dot_S512x2048_S2048x512_S512x512_1_0_0_1_n_n.rhsBatch by decide), dif_pos (show (1 : Fin S2048x512.rank) ∈ dot_S512x2048_S2048x512_S512x512_1_0_0_1_n_n.rhsNonContracting by decide)]
  rfl

/-- The tile's product into a zero accumulator, read at `(r, o)`: the sum over the 2048 nodes `m` of the left operand at
    `(r, m)` times the right at `(m, o)`. -/
theorem matmul_ix {φ₁ φ₂ : FTy} (lhs : FVec Ideal S512x2048 φ₁) (rhs : FVec Ideal S2048x512 φ₂) (r o : Fin 512) :
    matmul dot_S512x2048_S2048x512_S512x512_1_0_0_1_n_n none lhs rhs (constant S512x512 .f32 0x00000000#32) (ix2 r o)
      = ∑ m : Fin 2048, lhs (ix2 r m) * rhs (ix2 m o) := by
  simp only [matmul]
  rw [Ideal.matmul_constant_zero_apply, ← Equiv.sum_comp (contrEquiv1 dot_S512x2048_S2048x512_S512x512_1_0_0_1_n_n 2048 rfl rfl).symm]
  refine Finset.sum_congr rfl fun k _ => ?_
  have hk := contrEquiv1_symm_val dot_S512x2048_S2048x512_S512x512_1_0_0_1_n_n 2048 rfl rfl k
  have el : dot_S512x2048_S2048x512_S512x512_1_0_0_1_n_n.lhsIdx (ix2 r o) ((contrEquiv1 dot_S512x2048_S2048x512_S512x512_1_0_0_1_n_n 2048 rfl rfl).symm k) = ix2 r k := funext fun a => Fin.ext (by
    match a with
    | ⟨0, _⟩ => exact lhs_0 _ _
    | ⟨1, _⟩ => exact (lhs_1 _ _).trans hk)
  have er : dot_S512x2048_S2048x512_S512x512_1_0_0_1_n_n.rhsIdx (ix2 r o) ((contrEquiv1 dot_S512x2048_S2048x512_S512x512_1_0_0_1_n_n 2048 rfl rfl).symm k) = ix2 k o := funext fun a => Fin.ext (by
    match a with
    | ⟨0, _⟩ => exact (rhs_0 _ _).trans hk
    | ⟨1, _⟩ => exact rhs_1 _ _)
  rw [el, er]

/-! ## The payload at an element -/

/-- `tanh` of a vector at an index is `tanh` of the element. -/
theorem tanh_apply {s : Shape} {φ : FTy} (a : FVec Ideal s φ) (j : s.Idx) : tanh a j = Ideal.tanh (a j) := rfl

/-- THE AGGREGATION BODY AT ROW `r`, COLUMN `o` OF ITS TILE: `tanh` of the sum over the 2048 nodes `m` of the edge
    indicator of (tile row `r`, node `m`) times `h m o * dinv m`, scaled by the row's `dinv`, plus the bias. -/
theorem k2_pay1_apply (i : grid2.Coords) (hi : (i 1).val < 4) (v5 : Vec Ideal S1x512x2048 .f32)
    (v15 : Vec Ideal S1x2048x1 .f32) (v17 : Vec Ideal S1x2048x512 .f32) (v24 : Vec Ideal S1x512x1 .f32)
    (v28 : Vec Ideal S512 .f32) (r : Fin 512) (o : Fin 512) :
    Gen.k2_pay1 (F := Ideal) i v5 v15 v17 v24 v28 (ix3 (0 : Fin 1) r o) =
      Ideal.tanh ((∑ m : Fin 2048, max (if v5 (ix3 (0 : Fin 1) r m) ≠ 0 then (1 : EReal) else 0)
          (if (i 1).val * 512 + r.val = m.val then (1 : EReal) else 0)
            * (v17 (ix3 (0 : Fin 1) m o) * v15 (ix3 (0 : Fin 1) m (0 : Fin 1))))
        * v24 (ix3 (0 : Fin 1) r (0 : Fin 1)) + v28 (ix1 o)) := by
  unfold Gen.k2_pay1
  rw [shapeCast_ab_1ab_apply, tanh_apply, addf_apply, mulf_apply, matmul_ix,
    broadcastTo_a1_ab_apply, shapeCast_1ab_ab_apply, broadcastTo_1b_ab_apply, shapeCast_a_1a_apply]
  refine congrArg Ideal.tanh (congrArg (· + v28 (ix1 o)) (congrArg (· * v24 (ix3 (0 : Fin 1) r (0 : Fin 1)))
    (Finset.sum_congr rfl fun m _ => ?_)))
  rw [truncf_apply, truncf_apply, maximumf_apply, nz_apply, diag_apply (i 1).val hi, scaled_apply,
    shapeCast_1ab_ab_apply]

end Cert.KernelIdeal.PayAgg

end
-- ==== Proof.FinalAgg.lean ====
/-
  From the aggregation region's blocks to its whole output array, at the ideal values.

  The region runs the aggregation body at the 32 points (graph, row tile) of an 8 × 4 grid.  Point `t` reads the
  adjacency row tile `(b, mi)` (512 rows, all 2048 columns), the 2048 rows of the linear layer's output and of the degree
  scalings of graph `b`, the tile's own 512 scalings and the bias, and writes back rows `512·mi … 512·mi + 511` of graph
  `b` of the output.  What it writes is that block of ONE function of the arrays the region finds: at `(b, n, o)`, `tanh` of
  the sum over the nodes `m` of the edge indicator of `(n, m)` times `h b m o · dinv b m`, scaled by `dinv b n`, plus
  `bias o`.  The 32 blocks tile the array, so the array ends holding that function.
-/
import proofs.«146164_j70952859730403_2_alg».proof.Proof.FrameI.Region2
import proofs.«146164_j70952859730403_2_alg».proof.Proof.PayAgg
import proofs.«146164_j70952859730403_2_alg».proof.Proof.Spec
import Idealize.ShloMosaic.Lib.Pipeline.Value
import Idealize.ShloMosaic.Lib.ValueIdx

noncomputable section

namespace Cert.KernelIdeal.Final2

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The whole-array function -/

/-- The aggregation at graph `b`, node `n`, column `o`, of an adjacency `A`, features `H`, scalings `D` and bias `B`. -/
def agg (A : S8x2048x2048.Idx → EReal) (H : S8x2048x512.Idx → EReal) (D : S8x2048x1.Idx → EReal) (B : S512.Idx → EReal)
    (b : Fin 8) (n : Fin 2048) (o : Fin 512) : EReal :=
  Ideal.tanh ((∑ m : Fin 2048, Cert.Spec.edge (fun b n m => A (ix3 b n m)) b n m
      * (H (ix3 b m o) * D (ix3 b m (0 : Fin 1)))) * D (ix3 b n (0 : Fin 1)) + B (ix1 o))

/-- The same as a function of the output array's index. -/
def aggIdx (A : S8x2048x2048.Idx → EReal) (H : S8x2048x512.Idx → EReal) (D : S8x2048x1.Idx → EReal) (B : S512.Idx → EReal) :
    S8x2048x512.Idx → EReal :=
  fun j => agg A H D B ⟨(j 0).val, (j 0).isLt⟩ ⟨(j 1).val, (j 1).isLt⟩ ⟨(j 2).val, (j 2).isLt⟩

/-! ## The index maps over the grid -/

theorem hz3 : (![0, 0, 0] : Fin 3 → Nat) = fun _ => 0 := funext fun a => by fin_cases a <;> rfl
theorem hz1 : (![0] : Fin 1 → Nat) = fun _ => 0 := funext fun a => by fin_cases a <;> rfl

/-- The printed index maps, decided over the grid: at the point with coordinates (graph, tile) the adjacency, the row
    scalings and the output are at block (graph, tile, 0), the features and all scalings at block (graph, 0, 0), the bias
    at block 0. -/
theorem idx_facts : ∀ t : Fin cfg2.N,
    (win2_0.index t (0 : Fin 3) = (grid2.coords t 0).val ∧ win2_0.index t (1 : Fin 3) = (grid2.coords t 1).val ∧ win2_0.index t (2 : Fin 3) = 0)
    ∧ (win2_1.index t (0 : Fin 3) = (grid2.coords t 0).val ∧ win2_1.index t (1 : Fin 3) = 0 ∧ win2_1.index t (2 : Fin 3) = 0)
    ∧ (win2_2.index t (0 : Fin 3) = (grid2.coords t 0).val ∧ win2_2.index t (1 : Fin 3) = (grid2.coords t 1).val ∧ win2_2.index t (2 : Fin 3) = 0)
    ∧ (win2_3.index t (0 : Fin 3) = (grid2.coords t 0).val ∧ win2_3.index t (1 : Fin 3) = 0 ∧ win2_3.index t (2 : Fin 3) = 0)
    ∧ win2_4.index t (0 : Fin 1) = 0
    ∧ (win2_5.index t (0 : Fin 3) = (grid2.coords t 0).val ∧ win2_5.index t (1 : Fin 3) = (grid2.coords t 1).val ∧ win2_5.index t (2 : Fin 3) = 0) :=
  (by decide +kernel : ∀ t : Fin grid2.N, _)

/-- Every (graph, tile) is some point's output block. -/
theorem idx_onto : ∀ (q0 : Fin 8) (q1 : Fin 4), ∃ t : Fin cfg2.N,
    win2_5.index t (0 : Fin 3) = q0.val ∧ win2_5.index t (1 : Fin 3) = q1.val ∧ win2_5.index t (2 : Fin 3) = 0 :=
  (by decide +kernel : ∀ (q0 : Fin 8) (q1 : Fin 4), ∃ t : Fin grid2.N, _)

/-! ## The input blocks read where the arrays hold them -/

/-- The adjacency tile of point `t` at `(x0, r, m)` is the array at (graph, 512·tile + r, m). -/
theorem iblk0_apply (c : Dev nD) (t : Fin cfg2.N) (x : S1x512x2048.Idx) (k : S8x2048x2048.Idx)
    (hk0 : (k 0).val = (grid2.coords t 0).val) (hk1 : (k 1).val = (grid2.coords t 1).val * 512 + (x 1).val)
    (hk2 : (k 2).val = (x 2).val) :
    (iblk2 V c 0 t : Vec Ideal S1x512x2048 .f32) x = (V c main_arg1 : S8x2048x2048.Idx → Elt Ideal .f32) k := by
  obtain ⟨⟨e0, e1, e2⟩, -⟩ := idx_facts t
  unfold iblk2
  rw [View.read_apply]
  show V c main_arg1 _ = V c main_arg1 _
  congr 1
  funext a
  apply Fin.ext
  have hx0 : (x 0).val < 1 := (x 0).isLt
  match a with
  | ⟨0, _⟩ => show win2_0.index t 0 * 1 + 1 * (x 0).val = (k 0).val; rw [e0, hk0]; omega
  | ⟨1, _⟩ => show win2_0.index t 1 * 512 + 1 * (x 1).val = (k 1).val; rw [e1, hk1]; omega
  | ⟨2, _⟩ => show win2_0.index t 2 * 2048 + 1 * (x 2).val = (k 2).val; rw [e2, hk2]; omega

/-- The features block of point `t` at `(x0, m, o)` is the array at (graph, m, o). -/
theorem iblk1_apply (c : Dev nD) (t : Fin cfg2.N) (x : S1x2048x512.Idx) (k : S8x2048x512.Idx)
    (hk0 : (k 0).val = (grid2.coords t 0).val) (hk1 : (k 1).val = (x 1).val) (hk2 : (k 2).val = (x 2).val) :
    (iblk2 V c 1 t : Vec Ideal S1x2048x512 .f32) x = (V c main_v7 : S8x2048x512.Idx → Elt Ideal .f32) k := by
  obtain ⟨-, ⟨e0, e1, e2⟩, -⟩ := idx_facts t
  unfold iblk2
  rw [View.read_apply]
  show V c main_v7 _ = V c main_v7 _
  congr 1
  funext a
  apply Fin.ext
  have hx0 : (x 0).val < 1 := (x 0).isLt
  match a with
  | ⟨0, _⟩ => show win2_1.index t 0 * 1 + 1 * (x 0).val = (k 0).val; rw [e0, hk0]; omega
  | ⟨1, _⟩ => show win2_1.index t 1 * 2048 + 1 * (x 1).val = (k 1).val; rw [e1, hk1]; omega
  | ⟨2, _⟩ => show win2_1.index t 2 * 512 + 1 * (x 2).val = (k 2).val; rw [e2, hk2]; omega

/-- The row scalings of point `t` at `(x0, r, x2)` are the array at (graph, 512·tile + r, 0). -/
theorem iblk2_apply (c : Dev nD) (t : Fin cfg2.N) (x : S1x512x1.Idx) (k : S8x2048x1.Idx)
    (hk0 : (k 0).val = (grid2.coords t 0).val) (hk1 : (k 1).val = (grid2.coords t 1).val * 512 + (x 1).val) :
    (iblk2 V c 2 t : Vec Ideal S1x512x1 .f32) x = (V c main_v4 : S8x2048x1.Idx → Elt Ideal .f32) k := by
  obtain ⟨-, -, ⟨e0, e1, e2⟩, -⟩ := idx_facts t
  unfold iblk2
  rw [View.read_apply]
  show V c main_v4 _ = V c main_v4 _
  congr 1
  funext a
  apply Fin.ext
  have hx0 : (x 0).val < 1 := (x 0).isLt
  have hx2 : (x 2).val < 1 := (x 2).isLt
  have hk2 : (k 2).val < 1 := (k 2).isLt
  match a with
  | ⟨0, _⟩ => show win2_2.index t 0 * 1 + 1 * (x 0).val = (k 0).val; rw [e0, hk0]; omega
  | ⟨1, _⟩ => show win2_2.index t 1 * 512 + 1 * (x 1).val = (k 1).val; rw [e1, hk1]; omega
  | ⟨2, _⟩ => show win2_2.index t 2 * 1 + 1 * (x 2).val = (k 2).val; rw [e2]; omega

/-- The scalings of all nodes at point `t` at `(x0, m, x2)` are the array at (graph, m, 0). -/
theorem iblk3_apply (c : Dev nD) (t : Fin cfg2.N) (x : S1x2048x1.Idx) (k : S8x2048x1.Idx)
    (hk0 : (k 0).val = (grid2.coords t 0).val) (hk1 : (k 1).val = (x 1).val) :
    (iblk2 V c 3 t : Vec Ideal S1x2048x1 .f32) x = (V c main_v4 : S8x2048x1.Idx → Elt Ideal .f32) k := by
  obtain ⟨-, -, -, ⟨e0, e1, e2⟩, -⟩ := idx_facts t
  unfold iblk2
  rw [View.read_apply]
  show V c main_v4 _ = V c main_v4 _
  congr 1
  funext a
  apply Fin.ext
  have hx0 : (x 0).val < 1 := (x 0).isLt
  have hx2 : (x 2).val < 1 := (x 2).isLt
  have hk2 : (k 2).val < 1 := (k 2).isLt
  match a with
  | ⟨0, _⟩ => show win2_3.index t 0 * 1 + 1 * (x 0).val = (k 0).val; rw [e0, hk0]; omega
  | ⟨1, _⟩ => show win2_3.index t 1 * 2048 + 1 * (x 1).val = (k 1).val; rw [e1, hk1]; omega
  | ⟨2, _⟩ => show win2_3.index t 2 * 1 + 1 * (x 2).val = (k 2).val; rw [e2]; omega

/-- The bias block of every point is the bias. -/
theorem iblk4_apply (c : Dev nD) (t : Fin cfg2.N) (x : S512.Idx) :
    (iblk2 V c 4 t : Vec Ideal S512 .f32) x = (V c main_arg3 : S512.Idx → Elt Ideal .f32) x := by
  obtain ⟨-, -, -, -, e0, -⟩ := idx_facts t
  unfold iblk2
  rw [View.read_apply]
  show V c main_arg3 _ = V c main_arg3 _
  congr 1
  funext a
  apply Fin.ext
  match a with
  | ⟨0, _⟩ => show win2_4.index t 0 * 512 + 1 * (x 0).val = (x 0).val; rw [e0]; omega

/-! ## One point's block of the output -/

/-- The body's payload on blocks that are the arrays' blocks at graph `g` and a row tile, read at row `r` and column `o` of
    the tile: the aggregation at node `n`, the tile's first row plus `r`. -/
theorem pay_eq_agg (A : S8x2048x2048.Idx → EReal) (H : S8x2048x512.Idx → EReal) (D : S8x2048x1.Idx → EReal)
    (B : S512.Idx → EReal) (i : grid2.Coords) (g : Fin 8)
    (x0 : Vec Ideal S1x512x2048 .f32) (x1 : Vec Ideal S1x2048x512 .f32) (x2 : Vec Ideal S1x512x1 .f32)
    (x3 : Vec Ideal S1x2048x1 .f32) (x4 : Vec Ideal S512 .f32)
    (r o : Fin 512) (n : Fin 2048) (hn : n.val = (i 1).val * 512 + r.val)
    (h0 : ∀ m : Fin 2048, x0 (ix3 (0 : Fin 1) r m) = A (ix3 g n m))
    (h1 : ∀ m : Fin 2048, x1 (ix3 (0 : Fin 1) m o) = H (ix3 g m o))
    (h2 : x2 (ix3 (0 : Fin 1) r (0 : Fin 1)) = D (ix3 g n (0 : Fin 1)))
    (h3 : ∀ m : Fin 2048, x3 (ix3 (0 : Fin 1) m (0 : Fin 1)) = D (ix3 g m (0 : Fin 1)))
    (h4 : x4 (ix1 o) = B (ix1 o)) :
    Gen.k2_pay1 (F := Ideal) i x0 x3 x1 x2 x4 (ix3 (0 : Fin 1) r o) = agg A H D B g n o := by
  have hi : (i 1).val < 4 := (i 1).isLt
  rw [PayAgg.k2_pay1_apply i hi, h2, h4]
  unfold agg
  refine congrArg Ideal.tanh (congrArg (· + B (ix1 o)) (congrArg (· * D (ix3 g n (0 : Fin 1)))
    (Finset.sum_congr rfl fun m _ => ?_)))
  have hd : (if (i 1).val * 512 + r.val = m.val then (1 : EReal) else 0) = if n = m then (1 : EReal) else 0 :=
    if_congr ⟨fun h => Fin.ext (hn.trans h), fun h => by rw [← hn, h]⟩ rfl rfl
  rw [h0, h1, h3, hd]
  rfl

/-- WHAT POINT `t` WRITES BACK is block `t` of the aggregation of the arrays the region finds. -/
theorem flushed_eq (c : Dev nD) (t : Fin cfg2.N) :
    (dat2 V c).flushed 5 t = ((cfg2.win 5).blk t).view.read (Elt Ideal)
      (aggIdx (V c main_arg1) (V c main_v7) (V c main_v4) (V c main_arg3)) := by
  show (cfg2.win 5).cut (grid2.coords t) ((dat2 V c).after 5 t) = _
  rw [after2_5]
  unfold out2_5
  rw [View.canon_unit_zero hz3]
  simp only [View.ld_unit_zero (S := S1x512x2048) hz3, View.ld_unit_zero (S := S1x2048x512) hz3,
    View.ld_unit_zero (S := S1x512x1) hz3, View.ld_unit_zero (S := S1x2048x1) hz3, View.ld_unit_zero (S := S512) hz1]
  obtain ⟨-, -, -, -, -, e0, e1, e2⟩ := idx_facts t
  funext y
  have hy0 : (y 0).val < 1 := (y 0).isLt
  have hy1 : (y 1).val < 512 := (y 1).isLt
  have hy2 : (y 2).val < 512 := (y 2).isLt
  have hc0 : (grid2.coords t 0).val < 8 := (grid2.coords t 0).isLt
  have hc1 : (grid2.coords t 1).val < 4 := (grid2.coords t 1).isLt
  have hy : y = ix3 (0 : Fin 1) (⟨(y 1).val, hy1⟩ : Fin 512) (⟨(y 2).val, hy2⟩ : Fin 512) := funext fun a => Fin.ext (by
    match a with
    | ⟨0, _⟩ => show (y 0).val = 0; omega
    | ⟨1, _⟩ => rfl
    | ⟨2, _⟩ => rfl)
  have hE : (((cfg2.win 5).blk t).view.emb y : S8x2048x512.Idx)
      = ix3 (⟨(grid2.coords t 0).val, hc0⟩ : Fin 8) (⟨(grid2.coords t 1).val * 512 + (y 1).val, by omega⟩ : Fin 2048)
          (⟨(y 2).val, hy2⟩ : Fin 512) := funext fun a => Fin.ext (by
    match a with
    | ⟨0, _⟩ => show win2_5.index t 0 * 1 + 1 * (y 0).val = (grid2.coords t 0).val; rw [e0]; omega
    | ⟨1, _⟩ => show win2_5.index t 1 * 512 + 1 * (y 1).val = (grid2.coords t 1).val * 512 + (y 1).val; rw [e1]; omega
    | ⟨2, _⟩ => show win2_5.index t 2 * 512 + 1 * (y 2).val = (y 2).val; rw [e2]; omega)
  show Gen.k2_pay1 (F := Ideal) (grid2.coords t) (iblk2 V c 0 t) (iblk2 V c 3 t) (iblk2 V c 1 t) (iblk2 V c 2 t) (iblk2 V c 4 t) y
    = aggIdx (V c main_arg1) (V c main_v7) (V c main_v4) (V c main_arg3) (((cfg2.win 5).blk t).view.emb y)
  rw [hE]
  refine (congrArg _ hy).trans ?_
  exact pay_eq_agg (V c main_arg1) (V c main_v7) (V c main_v4) (V c main_arg3) (grid2.coords t) _ _ _ _ _ _ _ _ _ rfl
    (fun m => iblk0_apply V c t _ _ rfl rfl rfl)
    (fun m => iblk1_apply V c t _ _ rfl rfl rfl)
    (iblk2_apply V c t _ _ rfl rfl)
    (fun m => iblk3_apply V c t _ _ rfl rfl)
    (iblk4_apply V c t _)

/-! ## The blocks tile the array -/

/-- An index of the array is in point `t`'s block iff each coordinate is in the block's range on its axis. -/
theorem mem_blk (t : Fin cfg2.N) (i : S8x2048x512.Idx) :
    i ∈ ((cfg2.win 5).blk t).view.set ↔ ∀ a : Fin 3, win2_5.index t a * S1x512x512.size a ≤ (i a).val
      ∧ (i a).val < win2_5.index t a * S1x512x512.size a + S1x512x512.size a := by
  show i ∈ ((View.whole main_v8).slice (win2_5.rect t)).set ↔ _
  rw [View.set_slice_whole, Rect.mem_set_unit]
  exact Iff.rfl

/-- Row `n` of graph `b` is in the block of the point (b, n / 512). -/
theorem cover (i : S8x2048x512.Idx) :
    ∃ t : Fin cfg2.N, (cfg2.win 5).flush t = true ∧ i ∈ ((cfg2.win 5).blk t).view.set := by
  have hi0 : (i 0).val < 8 := (i 0).isLt
  have hi1 : (i 1).val < 2048 := (i 1).isLt
  have hi2 : (i 2).val < 512 := (i 2).isLt
  obtain ⟨t, q0, q1, q2⟩ := idx_onto ⟨(i 0).val, hi0⟩ ⟨(i 1).val / 512, by omega⟩
  have q0' : win2_5.index t (0 : Fin 3) = (i 0).val := q0
  have q1' : win2_5.index t (1 : Fin 3) = (i 1).val / 512 := q1
  refine ⟨t, flush2_5 t, ?_⟩
  rw [mem_blk]
  intro a
  match a with
  | ⟨0, _⟩ => show win2_5.index t (0 : Fin 3) * 1 ≤ (i 0).val ∧ (i 0).val < win2_5.index t (0 : Fin 3) * 1 + 1; omega
  | ⟨1, _⟩ => show win2_5.index t (1 : Fin 3) * 512 ≤ (i 1).val ∧ (i 1).val < win2_5.index t (1 : Fin 3) * 512 + 512; omega
  | ⟨2, _⟩ => show win2_5.index t (2 : Fin 3) * 512 ≤ (i 2).val ∧ (i 2).val < win2_5.index t (2 : Fin 3) * 512 + 512; omega

/-! ## The array after the region -/

/-- THE OUTPUT ARRAY after the region's 32 points is the aggregation of the arrays the region finds. -/
theorem final2_fun (c : Dev nD) :
    (dat2 V c).arrAt 5 cfg2.N = aggIdx (V c main_arg1) (V c main_v7) (V c main_v4) (V c main_arg3) :=
  (dat2 V c).arrAt_eq_of_cover 5 _ (fun t _ => flushed_eq V c t) cover

/-- The arrays the region finds, over plain coordinates: the adjacency, the linear layer's output, the degree scalings
    and the bias. -/
abbrev adjOf (c : Dev nD) : Fin 8 → Fin 2048 → Fin 2048 → EReal := fun b n m => V c main_arg1 (ix3 b n m)
abbrev hOf (c : Dev nD) : Fin 8 → Fin 2048 → Fin 512 → EReal := fun b m o => V c main_v7 (ix3 b m o)
abbrev dOf (c : Dev nD) : Fin 8 → Fin 2048 → EReal := fun b m => V c main_v4 (ix3 b m (0 : Fin 1))
abbrev biasOf (c : Dev nD) : Fin 512 → EReal := fun o => V c main_arg3 (ix1 o)

/-- The same at graph `b`, node `n`, column `o`. -/
theorem final2 (c : Dev nD) (b : Fin 8) (n : Fin 2048) (o : Fin 512) :
    (dat2 V c).arrAt 5 cfg2.N (ix3 b n o)
      = Ideal.tanh ((∑ m : Fin 2048, Cert.Spec.edge (adjOf V c) b n m * (hOf V c b m o * dOf V c b m)) * dOf V c b n
        + biasOf V c o) :=
  (congrFun (final2_fun V c) (ix3 b n o)).trans rfl

end Cert.KernelIdeal.Final2

end
-- ==== Proof.HostGlue.lean ====
/- What the host operations between the kernel regions compute, read at an index of the extended reals: the
   reciprocal square roots of the degrees (zero where a degree is not positive), the features laid out as one matrix of
   16384 rows (graph b's node n is row b * 2048 + n), and the linear layer's result laid out per graph again. Also: the
   argument arrays that no earlier item writes still hold their launch contents where a later region reads them. -/
import proofs.«146164_j70952859730403_2_alg».proof.Proof.FrameI.Chain
import proofs.«146164_j70952859730403_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Glue

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

/-! ## Buffers nothing has written yet -/

section Untouched
variable {F : FTy → Type} [FloatOps F]
variable (m : (ℓ : Loc nD τ sig) → Buf (Elt F) ℓ)

/-- After the first region a buffer holds its launch contents unless it is the region's output array. -/
theorem W1_arg (c : Dev nD) (b : Ref sig .tc)
    (h0 : ∀ w, Pipeline.arrRef spec0 w = b → (cfg0.win w).isOut = false) :
    Hand.W1 m c (Proc.devRef .tc b) = m ((c : Thread nD τ).loc b) := by
  by_cases h : ∃ w, Pipeline.arrRef spec0 w = b
  · obtain ⟨w, rfl⟩ := h
    exact (Hand.W1_arr m c w).trans (((Hand.dat0 (Hand.V0 m) c).arrAt_in w (h0 w rfl) _).trans (Hand.A_eq0 (Hand.V0 m) c w))
  · exact Hand.W1_of_ne m c b fun w e => h ⟨w, e⟩

/-- The same after the degrees' comparison, reciprocal square roots and selection, for a buffer none of them writes. -/
theorem W3_arg (c : Dev nD) (b : Ref sig .tc)
    (h11 : b ∉ (hostOps1_1_W : List (Ref sig .tc))) (h10 : b ∉ (hostOps1_W : List (Ref sig .tc)))
    (h0 : ∀ w, Pipeline.arrRef spec0 w = b → (cfg0.win w).isOut = false) :
    Hand.W3 m c (Proc.devRef .tc b) = m ((c : Thread nD τ).loc b) := by
  rw [show Hand.W3 m c (Proc.devRef .tc b) = Hand.W2 m c (Proc.devRef .tc b) from StableHlo.after_of_writes_sub hostOps1_1 _ hostOps1_1_writes h11,
    show Hand.W2 m c (Proc.devRef .tc b) = Hand.W1 m c (Proc.devRef .tc b) from StableHlo.after_of_writes_sub hostOps1 _ hostOps1_writes h10]
  exact W1_arg m c b h0

/-- The same at the second region's entry, for a buffer the features' new layout is not written to either. -/
theorem W4_arg (c : Dev nD) (b : Ref sig .tc) (h12 : b ∉ (hostOps1_2_W : List (Ref sig .tc)))
    (h11 : b ∉ (hostOps1_1_W : List (Ref sig .tc))) (h10 : b ∉ (hostOps1_W : List (Ref sig .tc)))
    (h0 : ∀ w, Pipeline.arrRef spec0 w = b → (cfg0.win w).isOut = false) :
    Hand.W4 m c (Proc.devRef .tc b) = m ((c : Thread nD τ).loc b) := by
  rw [show Hand.W4 m c (Proc.devRef .tc b) = Hand.W3 m c (Proc.devRef .tc b) from StableHlo.after_of_writes_sub hostOps1_2 _ hostOps1_2_writes h12]
  exact W3_arg m c b h11 h10 h0

/-- The same at the third region's entry, for a buffer that is neither the second region's output array nor the
    per-graph layout of its result. -/
theorem W6_arg (c : Dev nD) (b : Ref sig .tc) (h2 : b ∉ (hostOps2_W : List (Ref sig .tc)))
    (h1 : ∀ w, Pipeline.arrRef spec1 w = b → (cfg1.win w).isOut = false)
    (h12 : b ∉ (hostOps1_2_W : List (Ref sig .tc))) (h11 : b ∉ (hostOps1_1_W : List (Ref sig .tc))) (h10 : b ∉ (hostOps1_W : List (Ref sig .tc)))
    (h0 : ∀ w, Pipeline.arrRef spec0 w = b → (cfg0.win w).isOut = false) :
    Hand.W6 m c (Proc.devRef .tc b) = m ((c : Thread nD τ).loc b) := by
  rw [show Hand.W6 m c (Proc.devRef .tc b) = Hand.W5 m c (Proc.devRef .tc b) from StableHlo.after_of_writes_sub hostOps2 _ hostOps2_writes h2]
  have e5 : Hand.W5 m c (Proc.devRef .tc b) = Hand.W4 m c (Proc.devRef .tc b) := by
    by_cases h : ∃ w, Pipeline.arrRef spec1 w = b
    · obtain ⟨w, rfl⟩ := h
      exact (Hand.W5_arr m c w).trans (((Hand.dat1 (Hand.V4 m) c).arrAt_in w (h1 w rfl) _).trans (Hand.A_eq1 (Hand.V4 m) c w))
    · exact Hand.W5_of_ne m c b fun w e => h ⟨w, e⟩
  rw [e5]
  exact W4_arg m c b h12 h11 h10 h0

/-- The adjacency, as launched, is what the third region reads. -/
theorem W6_main_arg1 (c : Dev nD) : Hand.W6 m c (Proc.devRef .tc main_arg1) = m ((c : Thread nD τ).loc main_arg1) :=
  W6_arg m c main_arg1 (by decide) (by decide) (by decide) (by decide) (by decide) (by decide)
/-- The bias, as launched, is what the third region reads. -/
theorem W6_main_arg3 (c : Dev nD) : Hand.W6 m c (Proc.devRef .tc main_arg3) = m ((c : Thread nD τ).loc main_arg3) :=
  W6_arg m c main_arg3 (by decide) (by decide) (by decide) (by decide) (by decide) (by decide)
/-- The weight matrix, as launched, is what the second region reads. -/
theorem W4_main_arg2 (c : Dev nD) : Hand.W4 m c (Proc.devRef .tc main_arg2) = m ((c : Thread nD τ).loc main_arg2) :=
  W4_arg m c main_arg2 (by decide) (by decide) (by decide) (by decide)

end Untouched

/-! ## The two changes of layout -/

section Layout
variable (m : (ℓ : Loc nD τ sig) → Buf (Elt Ideal) ℓ)

/-- Row r of the feature matrix the second region reads is node r % 2048 of graph r / 2048 of the features as launched:
    the reshape keeps the row-major position, (r / 2048 * 2048 + r % 2048) * 512 + f = r * 512 + f. -/
theorem x2d_read (c : Dev nD) (r : Fin 16384) (f : Fin 512) :
    Hand.W4 (F := Ideal) m c (Proc.devRef .tc main_v5) (ix2 r f)
      = m ((c : Thread nD τ).loc main_arg0)
          (ix3 (⟨r.val / 2048, by have := r.isLt; omega⟩ : Fin 8) (⟨r.val % 2048, Nat.mod_lt _ (by decide)⟩ : Fin 2048) f) := by
  have e : (Hand.W4 (F := Ideal) m c (Proc.devRef .tc main_v5) : S16384x512.Idx → EReal)
      = shapeCast S16384x512 (Hand.W3 (F := Ideal) m c (Proc.devRef .tc main_arg0) : S8x2048x512.Idx → EReal) shapeCasts_S8x2048x512_S16384x512 := by
    dsimp only [Hand.W4, hostOps1_2]; after_results; rfl
  refine (congrFun e (ix2 r f)).trans ?_
  refine (shapeCast_apply _ _ (ix2 r f)
    (ix3 (⟨r.val / 2048, by have := r.isLt; omega⟩ : Fin 8) (⟨r.val % 2048, Nat.mod_lt _ (by decide)⟩ : Fin 2048) f) ?_).trans ?_
  · rw [Shape.rowMajor_val_three, Shape.rowMajor_val_two]
    show (r.val / 2048 * 2048 + r.val % 2048) * 512 + f.val = r.val * 512 + f.val
    omega
  · exact congrFun (W3_arg m c main_arg0 (by decide) (by decide) (by decide)) _

/-- Node n of graph b of the linear layer's result as the third region reads it is row b * 2048 + n of the second
    region's output matrix: the same row-major position. -/
theorem h_read (c : Dev nD) (b : Fin 8) (n : Fin 2048) (o : Fin 512) :
    Hand.W6 (F := Ideal) m c (Proc.devRef .tc main_v7) (ix3 b n o)
      = Hand.W5 (F := Ideal) m c (Proc.devRef .tc main_v6)
          (ix2 (⟨b.val * 2048 + n.val, by have := b.isLt; have := n.isLt; omega⟩ : Fin 16384) o) := by
  have e : (Hand.W6 (F := Ideal) m c (Proc.devRef .tc main_v7) : S8x2048x512.Idx → EReal)
      = shapeCast S8x2048x512 (Hand.W5 (F := Ideal) m c (Proc.devRef .tc main_v6) : S16384x512.Idx → EReal) shapeCasts_S16384x512_S8x2048x512 := by
    dsimp only [Hand.W6, hostOps2]; after_results; rfl
  refine (congrFun e (ix3 b n o)).trans ?_
  refine shapeCast_apply _ _ (ix3 b n o)
    (ix2 (⟨b.val * 2048 + n.val, by have := b.isLt; have := n.isLt; omega⟩ : Fin 16384) o) ?_
  rw [Shape.rowMajor_val_three, Shape.rowMajor_val_two]
  show (b.val * 2048 + n.val) * 512 + o.val = (b.val * 2048 + n.val) * 512 + o.val
  rfl

end Layout

/-! ## The reciprocal square roots of the degrees -/

section Dinv
variable (m : (ℓ : Loc nD τ sig) → Buf (Elt Ideal) ℓ)

/-- What the third region reads as the degree scaling of node n of graph b: with d b n the degree the first region
    left, the selection between the reciprocal square root of d b n (where 0 < d b n) and zero. Nothing after the
    selection writes that array: not the features' layout, not the second region (its arrays are the feature matrix,
    the weights and its own output), not the result's layout. -/
theorem dinv_read (c : Dev nD) (d : Fin 8 → Fin 2048 → EReal)
    (hd : ∀ b n, Hand.W1 (F := Ideal) m c (Proc.devRef .tc main_v0) (ix3 b n (0 : Fin 1)) = d b n)
    (b : Fin 8) (n : Fin 2048) :
    Hand.W6 (F := Ideal) m c (Proc.devRef .tc main_v4) (ix3 b n (0 : Fin 1))
      = if 0 < d b n then Ideal.rsqrt (d b n) else 0 := by
  have h65 : Hand.W6 (F := Ideal) m c (Proc.devRef .tc main_v4) = Hand.W5 (F := Ideal) m c (Proc.devRef .tc main_v4) :=
    StableHlo.after_of_writes_sub hostOps2 _ hostOps2_writes (by decide)
  have h54 : Hand.W5 (F := Ideal) m c (Proc.devRef .tc main_v4) = Hand.W4 (F := Ideal) m c (Proc.devRef .tc main_v4) :=
    Hand.W5_of_ne m c main_v4 (by decide)
  have h43 : Hand.W4 (F := Ideal) m c (Proc.devRef .tc main_v4) = Hand.W3 (F := Ideal) m c (Proc.devRef .tc main_v4) :=
    StableHlo.after_of_writes_sub hostOps1_2 _ hostOps1_2_writes (by decide)
  have e : (Hand.W3 (F := Ideal) m c (Proc.devRef .tc main_v4) : S8x2048x1.Idx → EReal)
      = select (cmpf .ogt (Hand.W1 (F := Ideal) m c (Proc.devRef .tc main_v0) : S8x2048x1.Idx → EReal)
                  (broadcastInDim S8x2048x1 ![] bcast_S_S8x2048x1 (constant (F := Ideal) S_ .f32 0x00000000#32)))
          (Host.rsqrt (F := Ideal) (Hand.W1 (F := Ideal) m c (Proc.devRef .tc main_v0) : S8x2048x1.Idx → EReal))
          (broadcastInDim S8x2048x1 ![] bcast_S_S8x2048x1 (id (constant (F := Ideal) S_ .f32 0x00000000#32))) := by
    dsimp only [Hand.W3, Hand.W2, hostOps1_1, hostOps1]; after_results; rfl
  rw [h65, h54, h43]
  refine (congrFun e (ix3 b n (0 : Fin 1))).trans ?_
  show Scalar.select (Ideal.cmp .ogt (Hand.W1 (F := Ideal) m c (Proc.devRef .tc main_v0) (ix3 b n (0 : Fin 1))) (Ideal.ofBits .f32 0x00000000#32))
      (Ideal.rsqrt (Hand.W1 (F := Ideal) m c (Proc.devRef .tc main_v0) (ix3 b n (0 : Fin 1)))) (Ideal.ofBits .f32 0x00000000#32) = _
  rw [hd b n, Ideal.ofBits_zero_f32]
  unfold Scalar.select Ideal.cmp
  by_cases h : 0 < d b n
  · simp [h]
  · simp [h]

end Dinv

end Cert.KernelIdeal.Glue

end
-- ==== Proof.KernelValue.lean ====
/-
  The idealized kernel program's result array as ONE function of the argument arrays: the layer's output in the kernel's
  arrangement, `tanh ((A + I) (D^{-1/2} X W)) D^{-1/2} + bias`.  The third region's array is that of the blocks its grid
  points wrote (each the aggregation of the region's entry arrays); those entry arrays are the adjacency and the bias as
  launched, the degree scalings the host computed from the first region's degrees, and the linear layer's result the
  second region left, laid out per graph.
-/
import proofs.«146164_j70952859730403_2_alg».proof.Proof.FrameI.Chain
import proofs.«146164_j70952859730403_2_alg».proof.Proof.FinalDegLin
import proofs.«146164_j70952859730403_2_alg».proof.Proof.FinalAgg
import proofs.«146164_j70952859730403_2_alg».proof.Proof.HostGlue
import proofs.«146164_j70952859730403_2_alg».proof.Proof.Spec

noncomputable section

namespace Cert.KernelIdeal.KValue

open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ)

/-- The degrees the first region leaves. -/
theorem deg_read (c : Dev nD) (b : Fin 8) (n : Fin 2048) :
    W1 (F := Ideal) m c (Proc.devRef .tc main_v0) (ix3 b n (0 : Fin 1))
      = Cert.Spec.deg (fun b n k => m ((c : Thread nD τ).loc main_arg1) (ix3 b n k)) b n :=
  (congrFun (W1_arr m c 1) _).trans (Final01.final0 (V0 m) c b n)

/-- The linear layer's result the second region leaves, per graph. -/
theorem lin_read (c : Dev nD) (b : Fin 8) (k : Fin 2048) (o : Fin 512) :
    V6 (F := Ideal) m c main_v7 (ix3 b k o)
      = Cert.Spec.lin (fun b n f => m ((c : Thread nD τ).loc main_arg0) (ix3 b n f)) (fun f o => m ((c : Thread nD τ).loc main_arg2) (ix2 f o)) b k o := by
  have hr : b.val * 2048 + k.val < 16384 := by omega
  refine (Glue.h_read m c b k o).trans ?_
  refine (congrFun (W5_arr m c 2) _).trans ?_
  refine (Final01.final1 (V4 m) c ⟨b.val * 2048 + k.val, hr⟩ o).trans ?_
  unfold Cert.Spec.lin
  refine Finset.sum_congr (M := EReal) rfl fun f _ => ?_
  dsimp only [Final01.xOf, Final01.wOf]
  refine congrArg₂ (fun x y : EReal => x * y) ?_ ?_
  · refine (Glue.x2d_read m c ⟨b.val * 2048 + k.val, hr⟩ f).trans ?_
    refine congrArg (fun j => m ((c : Thread nD τ).loc main_arg0) j) ?_
    refine congrArg₂ (fun x y => ix3 x y f) (Fin.ext ?_) (Fin.ext ?_)
    · show (b.val * 2048 + k.val) / 2048 = b.val; omega
    · show (b.val * 2048 + k.val) % 2048 = k.val; omega
  · exact congrFun (Glue.W4_main_arg2 m c) _

/-- THE KERNEL'S VALUE: the result array, element by element, is the layer's output in the kernel's arrangement. -/
theorem result_eq (c : Dev nD) (b : Fin 8) (n : Fin 2048) (o : Fin 512) :
    (dat2 (F := Ideal) (V6 m) c).arrAt 5 cfg2.N (ix3 b n o)
      = Cert.Spec.kernelOut (fun b n f => m ((c : Thread nD τ).loc main_arg0) (ix3 b n f)) (fun b n k => m ((c : Thread nD τ).loc main_arg1) (ix3 b n k))
          (fun f o => m ((c : Thread nD τ).loc main_arg2) (ix2 f o)) (fun o => m ((c : Thread nD τ).loc main_arg3) (ix1 o)) b n o := by
  have hadj : Final2.adjOf (V6 m) c = fun b n k => m ((c : Thread nD τ).loc main_arg1) (ix3 b n k) := by
    funext b n k; exact congrFun (Glue.W6_main_arg1 m c) _
  have hbias : Final2.biasOf (V6 m) c o = m ((c : Thread nD τ).loc main_arg3) (ix1 o) := congrFun (Glue.W6_main_arg3 m c) _
  have hd : ∀ k : Fin 2048, Final2.dOf (V6 m) c b k
      = Cert.Spec.dinv (fun b n k => m ((c : Thread nD τ).loc main_arg1) (ix3 b n k)) b k := fun k =>
    Glue.dinv_read m c _ (fun b n => deg_read m c b n) b k
  have hh : ∀ k : Fin 2048, Final2.hOf (V6 m) c b k o
      = Cert.Spec.lin (fun b n f => m ((c : Thread nD τ).loc main_arg0) (ix3 b n f)) (fun f o => m ((c : Thread nD τ).loc main_arg2) (ix2 f o)) b k o :=
    fun k => lin_read m c b k o
  rw [Final2.final2 (V6 m) c b n o, hadj, hbias, hd n]
  unfold Cert.Spec.kernelOut
  refine congrArg Ideal.tanh (congrArg (fun x : EReal => x + _) (congrArg (fun x : EReal => x * _) (Finset.sum_congr rfl fun k _ => ?_)))
  rw [hd k, hh k]

end Cert.KernelIdeal.KValue

end
-- ==== Proof.lean ====
/-
  A graph-convolution layer on a batch of 8 graphs with 2048 nodes and 512 features,
  `tanh (D^{-1/2} (A + I) D^{-1/2} (X W) + bias)`, `A` the 0/1 edge indicator of the adjacency, `I` a forced self loop, `D`
  the degrees.  The kernel program computes it in three kernel regions — the degrees as row sums of the edge indicator; the
  linear layer `X W` tile by tile; the aggregation `((A + I) (D^{-1/2} X W)) D^{-1/2} + bias` under `tanh`, one full-width
  matrix product per row tile — with the degree scalings computed between the regions; the reference scales the adjacency
  on both sides first and then aggregates.

  The three frames: each kernel program is the run of its seven items (three regions among four stretches of host
  operations), at the word-level instance and at the extended reals alike; the reference is a straight line of host
  operations.  The idealization rewrote nothing.  The value claim: over the extended reals the kernel program's result
  array is, element by element, the layer's output in the kernel's arrangement; the reference's is the same in the
  reference's arrangement; and the two arrangements agree because multiplication of extended reals is commutative and
  associative, and a NONNEGATIVE REAL factor — a degree scaling is one: the degree is a count, at least one — distributes
  over a finite sum of extended reals, whatever their signs or infinities.  No finiteness of the inputs is used.
-/
import proofs.«146164_j70952859730403_2_alg».proof.Defs
import proofs.«146164_j70952859730403_2_alg».proof.Proof.Gen.Kernel
import proofs.«146164_j70952859730403_2_alg».proof.Proof.Gen.KernelIdeal
import proofs.«146164_j70952859730403_2_alg».proof.Proof.Gen.ReferenceIdeal
import proofs.«146164_j70952859730403_2_alg».proof.Proof.Gen.Pre_finite_inputs
import proofs.«146164_j70952859730403_2_alg».proof.Proof.FrameB.Run
import proofs.«146164_j70952859730403_2_alg».proof.Proof.FrameI.Run
import proofs.«146164_j70952859730403_2_alg».proof.Proof.RefRun
import proofs.«146164_j70952859730403_2_alg».proof.Proof.RefRead
import proofs.«146164_j70952859730403_2_alg».proof.Proof.RefIsSpec
import proofs.«146164_j70952859730403_2_alg».proof.Proof.SpecAlgebra
import proofs.«146164_j70952859730403_2_alg».proof.Proof.KernelValue
import Idealize.ShloMosaic.Adequacy
import Idealize.ShloMosaic.Init

noncomputable section

namespace Cert.Proof

open Idealize.ShloMosaic Idealize.ShloMosaic.ValueIdx Idealize.SL.Sem

/-- The word-level kernel program runs to the end, faults nowhere and leaves its arguments unchanged. -/
theorem frame_k : Cert.frame_Kernel (hKernel := Cert.Kernel.Gen.facts) (hPre_finite_inputs := Cert.Pre_finite_inputs.Gen.facts) :=
  fun m ρ _ => Cert.Kernel.Hand.frame (F := Bits) m ρ

/-- The same program read over the extended reals. -/
theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The reference: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- Over the extended reals the two programs, run from memories agreeing on the arguments, end with equal results: the
    kernel's result array is the layer's output in the kernel's arrangement, the reference's the same in the reference's
    arrangement, and the two arrangements are one function. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => (Cert.KernelIdeal.Hand.dat2 (F := Ideal) (Cert.KernelIdeal.Hand.V6 m) c).arrAt 5 Cert.KernelIdeal.cfg2.N,
    Cert.KernelIdeal.Hand.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  refine (Cert.ReferenceIdeal.ReadP.val_main_v28_eq (F := Ideal) _ _ _ _).trans ?_
  funext i
  obtain ⟨b, n, o, rfl⟩ : ∃ (b : Fin 8) (n : Fin 2048) (o : Fin 512), i = ix3 b n o := ⟨i 0, i 1, i 2, eq_ix3 i⟩
  rw [Cert.ReferenceIdeal.RefValue.ref_is_spec, (hagree c).1, (hagree c).2.1, (hagree c).2.2.1, (hagree c).2.2.2,
    ← Cert.Spec.kernelOut_eq_refOut]
  exact (Cert.KernelIdeal.KValue.result_eq m c b n o).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
